-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000x256 : Shape := ⟨2, ![320000, 256]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256 .f32) (main_arg9 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256 .f32) (main_arg7 : FVec F S256x256 .f32) (main_arg8 : FVec F S256 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S10000x256 .f32) (main_arg1 : IVec S2x320000 32) (main_arg2 : FVec F S320000x256 .f32) (main_arg3 : FVec F S256x256 .f32) (main_arg4 : FVec F S256 .f32) (main_arg5 : FVec F S256 .f32) (main_arg6 : FVec F S256 .f32) (main_arg7 : FVec F S256x256 .f32) (main_arg8 : FVec F S256 .f32) (main_arg9 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x256 .f32 := Host.absf main_arg2
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S10000x256 : Shape := ⟨2, ![10000, 256]⟩
abbrev S2x320000 : Shape := ⟨2, ![2, 320000]⟩
abbrev S320000x256 : Shape := ⟨2, ![320000, 256]⟩
abbrev S256x256 : Shape := ⟨2, ![256, 256]⟩
abbrev S256 : Shape := ⟨1, ![256]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x256 : Shape := ⟨2, ![1, 256]⟩
abbrev S1x1 : Shape := ⟨2, ![1, 1]⟩
abbrev S10x8x256 : Shape := ⟨3, ![10, 8, 256]⟩
abbrev S1000x256 : Shape := ⟨2, ![1000, 256]⟩
abbrev S1x8x256 : Shape := ⟨3, ![1, 8, 256]⟩
abbrev S1x1x256 : Shape := ⟨3, ![1, 1, 256]⟩
abbrev S10x1x256 : Shape := ⟨3, ![10, 1, 256]⟩
abbrev S10x256 : Shape := ⟨2, ![10, 256]⟩

abbrev nBuf : Space → Nat
  | .hbm => 60
  | .vmem => 23
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S320000x256, .f32⟩
  | .hbm, ⟨24, _⟩ => ⟨S_, .f32⟩
  | .hbm, ⟨25, _⟩ => ⟨S10000x256, .f32⟩
  | .hbm, ⟨26, _⟩ => ⟨S320000x1, .i32⟩
  | .hbm, ⟨27, _⟩ => ⟨S10000x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x1, .f32⟩
  | .hbm, ⟨33, _⟩ => ⟨S256x256, .bf16⟩
  | .hbm, ⟨34, _⟩ => ⟨S256x256, .bf16⟩
  | .hbm, ⟨35, _⟩ => ⟨S10000x256, .f32⟩
  | .hbm, ⟨36, _⟩ => ⟨S10x8x256, .f32⟩
  | .hbm, ⟨37, _⟩ => ⟨S10x8x256, .f32⟩
  | .hbm, ⟨38, _⟩ => ⟨S10x1x256, .f32⟩
  | .hbm, ⟨39, _⟩ => ⟨S10x256, .f32⟩
  | .hbm, ⟨40, _⟩ => ⟨S_, .f32⟩
  | .hbm, ⟨41, _⟩ => ⟨S256, .f32⟩
  | .hbm, ⟨42, _⟩ => ⟨S10x1x256, .f32⟩
  | .hbm, ⟨43, _⟩ => ⟨S10x256, .f32⟩
  | .hbm, ⟨44, _⟩ => ⟨S_, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S1x256, .f32⟩
  | .hbm, ⟨59, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1x1, .f32⟩
  | .local _ .vmem, ⟨5, _⟩ => ⟨S256x256, .bf16⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | .local _ .vmem, ⟨9, _⟩ => ⟨S1x8x256, .f32⟩
  | .local _ .vmem, ⟨10, _⟩ => ⟨S1x8x256, .f32⟩
  | .local _ .vmem, ⟨11, _⟩ => ⟨S1x8x256, .f32⟩
  | .local _ .vmem, ⟨12, _⟩ => ⟨S1x8x256, .f32⟩
  | .local _ .vmem, ⟨13, _⟩ => ⟨S1000x256, .f32⟩
  | .local _ .vmem, ⟨14, _⟩ => ⟨S1000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x256, .bf16⟩
  | .local _ .vmem, ⟨20, _⟩ => ⟨S1x256, .f32⟩
  | .local _ .vmem, ⟨21, _⟩ => ⟨S1000x256, .f32⟩
  | .local _ .vmem, ⟨22, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  shapeCasts_S256_S1x256 : S256.ShapeCasts S1x256
  shapeCasts_S1_S1x1 : S1.ShapeCasts S1x1
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1000x256_S1000x256_0_0 : ∀ a, (![0, 0] : Fin 2 → Nat) a + S1000x256.size a ≤ S1000x256.size a
  h_S1000x256 : 0 < S1000x256.numel
  broadcasts_S1x1_S1000x256 : S1x1.Broadcasts S1000x256
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S256 : S1000x256.Reduces [0] S256
  shapeCasts_S1x256_S1x1x256 : S1x256.ShapeCasts S1x1x256
  shapeCasts_S1x1x256_S1x1x256 : S1x1x256.ShapeCasts S1x1x256
  broadcasts_S1x1x256_S1x8x256 : S1x1x256.Broadcasts S1x8x256
  inb_S1x8x256_S1x8x256_0_0_0 : ∀ a, (![0, 0, 0] : Fin 3 → Nat) a + S1x8x256.size a ≤ S1x8x256.size a
  h_S1x8x256 : 0 < S1x8x256.numel
  slices_S10x8x256_S10x1x256_0_0_0 : S10x8x256.Slices ![0, 0, 0] S10x1x256
  shapeCasts_S10x1x256_S10x256 : S10x1x256.ShapeCasts S10x256
  reducesTo_S10x256_S256_d0 : S10x256.ReducesTo [0] S256
  h_S_ : 0 < S_.numel
  bcast_S_S256 : S_.BroadcastsInDim S256 (![] : Fin 0 → Fin S256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S10000x256.size a
  hwx0_1 : ∀ i : grid0.Coords, EltTy.bits .f32 = 32 ∨ (Rect.block (s := S10000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x256.size a ≤ S10x8x256.size a
  hwx0_6 : ∀ i : grid0.Coords, EltTy.bits .f32 = 32 ∨ (Rect.block (s := S10x8x256) S1x8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x256.size a ≤ S10x8x256.size a
  hwx0_7 : ∀ i : grid0.Coords, EltTy.bits .f32 = 32 ∨ (Rect.block (s := S10x8x256) S1x8x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x256.size a ≤ S10000x256.size a
  hwx1_7 : ∀ i : grid1.Coords, EltTy.bits .f32 = 32 ∨ (Rect.block (s := S10000x256) S1000x256.size (cc1_transform_7 i) (hinb1_7 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S1000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S1x8x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_2) S1x8x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S1000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000x256 : Shape := ⟨2, ![320000, 256]⟩
abbrev S256x256 : Shape := ⟨2, ![256, 256]⟩
abbrev S256 : Shape := ⟨1, ![256]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x1 : Shape := ⟨2, ![1, 1]⟩
abbrev S1x256 : Shape := ⟨2, ![1, 256]⟩

abbrev nBuf : Space → Nat
  | .hbm => 76
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S320000x256, .f32⟩
  | .hbm, ⟨24, _⟩ => ⟨S_, .f32⟩
  | .hbm, ⟨25, _⟩ => ⟨S10000x256, .f32⟩
  | .hbm, ⟨26, _⟩ => ⟨S320000x1, .i32⟩
  | .hbm, ⟨27, _⟩ => ⟨S10000x256, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S10000x256, .f32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S10000x256, .f32⟩
  | .hbm, ⟨48, _⟩ => ⟨S_, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S1x256, .f32⟩
  | .hbm, ⟨54, _⟩ => ⟨S10000x256, .f32⟩
  | .hbm, ⟨55, _⟩ => ⟨S10000x256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S1x256, .f32⟩
  | .hbm, ⟨61, _⟩ => ⟨S10000x256, .f32⟩
  | .hbm, ⟨62, _⟩ => ⟨S10000x256, .f32⟩
  | .hbm, ⟨63, _⟩ => ⟨S1x256, .f32⟩
  | .hbm, ⟨64, _⟩ => ⟨S10000x256, .f32⟩
  | .hbm, ⟨65, _⟩ => ⟨S10000x256, .f32⟩
  | .hbm, ⟨66, _⟩ => ⟨S1x256, .f32⟩
  | .hbm, ⟨67, _⟩ => ⟨S10000x256, .f32⟩
  | .hbm, ⟨68, _⟩ => ⟨S10000x256, .f32⟩
  | .hbm, ⟨69, _⟩ => ⟨S_, .f32⟩
  | .hbm, ⟨70, _⟩ => ⟨S10000x256, .f32⟩
  | .hbm, ⟨71, _⟩ => ⟨S10000x256, .f32⟩
  | .hbm, ⟨72, _⟩ => ⟨S10000x256, .f32⟩
  | .hbm, ⟨73, _⟩ => ⟨S1x256, .f32⟩
  | .hbm, ⟨74, _⟩ => ⟨S10000x256, .f32⟩
  | .hbm, ⟨75, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S1 : S_.BroadcastsInDim S1 (![] : Fin 0 → Fin S1.rank)
  bcast_S1_S1x1_1 : S1.BroadcastsInDim S1x1 (![1] : Fin 1 → Fin S1x1.rank)
  bcast_S1x1_S10000x256_0_1 : S1x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S256 : S_.BroadcastsInDim S256 (![] : Fin 0 → Fin S256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KRun.lean ====
/-
  The idealized kernel's run with its result array named.

  Every weakly fair execution of the program terminates without a fault; the ten argument arrays end as launched, and the
  result array ends holding what the boundary contents after the second grid of blocks say it holds: the fold of the
  program's segments (host operations, first grid, host operations, second grid) from the launch memory.
-/
import proofs.«150048_j21801253995167_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, every argument array as launched. -/
theorem run_named : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

/-- The result array is the second grid's output array, so the last boundary holds there what that grid's
    write-backs leave. -/
theorem W4_result (c : Dev nD) : W4 m ρ c (Proc.devRef .tc main_v39) = (dat1 (V3 m ρ) c).arrAt 7 cfg1.N :=
  W4_arr m ρ c 7

end Cert.KernelIdeal.Gen

end
-- ==== Proof.Spec.lean ====
/-
  The layer's mathematics, stated once over plain indices.

  A node array `x` of 10000 rows and 256 features meets the aggregated messages `agg` as `(1 + e) · x + agg`; a first
  linear map gives the hidden rows `hid`.  Each feature column of `hid` is then normalised by its mean and its variance
  over the 10000 rows, scaled and shifted, cut below at zero, and sent through a second linear map.

  Two spellings of the column statistics are stated here.  The direct one takes the mean of the column and the mean of the
  squared deviations from it.  The blockwise one first sums each of the ten blocks of 1000 consecutive rows, adds the ten
  partial sums, and takes the variance as the mean of the squares less the square of the mean, cut below at zero.
  Nothing here mentions a program.
-/
import Idealize.ShloMosaic.PureOps.Ideal
import Idealize.ShloMosaic.Lib.ValueIdx

noncomputable section

open scoped BigOperators

namespace Cert.Bn

open Idealize.ShloMosaic

/-- The constants as the programs spell them: zero, one, the row count 10000, and the variance's guard. -/
def zeroC : EReal := Ideal.ofBits .f32 0x00000000#32
def oneC : EReal := Ideal.ofBits .f32 0x3F800000#32
def cntC : EReal := Ideal.ofBits .f32 0x461C4000#32
def epsC : EReal := Ideal.ofBits .f32 0x3727C5AC#32

/-- The hidden rows: `((1 + e) · x + agg) · W1 + b1`. -/
def hid (e : EReal) (x agg : Fin 10000 → Fin 256 → EReal) (W1 : Fin 256 → Fin 256 → EReal) (b1 : Fin 256 → EReal) :
    Fin 10000 → Fin 256 → EReal :=
  fun i d => (∑ k : Fin 256, ((oneC + e) * x i k + agg i k) * W1 k d) + b1 d

/-- A column's mean over the 10000 rows. -/
def mean (h : Fin 10000 → Fin 256 → EReal) : Fin 256 → EReal :=
  fun d => Ideal.div (zeroC + ∑ i : Fin 10000, h i d) cntC

/-- A column's variance: the mean of the squared deviations from the column's mean. -/
def var (h : Fin 10000 → Fin 256 → EReal) : Fin 256 → EReal :=
  fun d => Ideal.div (zeroC + ∑ i : Fin 10000, (h i d - mean h d) * (h i d - mean h d)) cntC

/-- Row `r` of block `b`: row `1000 · b + r` of the array. -/
def row (b : Fin 10) (r : Fin 1000) : Fin 10000 := ⟨1000 * b.val + r.val, by have := b.isLt; have := r.isLt; omega⟩

/-- The blockwise mean: the ten blocks' partial sums added, over the row count. -/
def meanK (h : Fin 10000 → Fin 256 → EReal) : Fin 256 → EReal :=
  fun d => Ideal.div (zeroC + ∑ b : Fin 10, ∑ r : Fin 1000, h (row b r) d) cntC

/-- The blockwise variance: the mean of the squares less the square of the mean, cut below at zero. -/
def varK (h : Fin 10000 → Fin 256 → EReal) : Fin 256 → EReal :=
  fun d => max (Ideal.div (zeroC + ∑ b : Fin 10, ∑ r : Fin 1000, h (row b r) d * h (row b r) d) cntC
    - meanK h d * meanK h d) zeroC

/-- Normalise with given column statistics, scale, shift, and cut below at zero. -/
def act (h : Fin 10000 → Fin 256 → EReal) (mu va γ β : Fin 256 → EReal) : Fin 10000 → Fin 256 → EReal :=
  fun i d => max ((h i d - mu d) * Ideal.rsqrt (va d + epsC) * γ d + β d) zeroC

/-- The second linear map. -/
def outp (y : Fin 10000 → Fin 256 → EReal) (W2 : Fin 256 → Fin 256 → EReal) (b2 : Fin 256 → EReal) :
    Fin 10000 → Fin 256 → EReal :=
  fun i c => (∑ d : Fin 256, y i d * W2 d c) + b2 c

/-- The whole layer from the node array, the aggregated messages and the parameters, with the column statistics taken by a
    given pair of rules (the direct pair `mean`, `var` or the blockwise pair `meanK`, `varK`). -/
def layer (smu sva : (Fin 10000 → Fin 256 → EReal) → Fin 256 → EReal) (e : EReal) (x agg : Fin 10000 → Fin 256 → EReal)
    (W1 : Fin 256 → Fin 256 → EReal) (b1 γ β : Fin 256 → EReal) (W2 : Fin 256 → Fin 256 → EReal) (b2 : Fin 256 → EReal) :
    Fin 10000 → Fin 256 → EReal :=
  outp (act (hid e x agg W1 b1) (smu (hid e x agg W1 b1)) (sva (hid e x agg W1 b1)) γ β) W2 b2

/-- A two-axis array and a one-axis array as functions of plain coordinates. -/
def m2 {a b : Nat} (v : (⟨2, ![a, b]⟩ : Shape).Idx → EReal) : Fin a → Fin b → EReal := fun p q => v (ValueIdx.ix2 p q)
def m1 {a : Nat} (v : (⟨1, ![a]⟩ : Shape).Idx → EReal) : Fin a → EReal := fun p => v (ValueIdx.ix1 p)

/-- An extended real that is a real number. -/
def IsReal (v : EReal) : Prop := ∃ r : ℝ, v = (r : EReal)

end Cert.Bn

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibLane3.lean ====
/-
  Rank-3 arrays read at an index by coordinates: the two ways a matrix becomes a rank-3 array with a unit axis
  (a column of rows [a, b] → [a, b, 1], a row of rows [a, b] → [a, 1, b]), the three broadcasts of a rank-3 array with
  one unit axis to the full box, and the reductions along the LAST axis (a fold of `max`, a sum) written over that
  axis's coordinate.  All shapes are literal-rank with variable extents, so the lemmas do not change with a tiling.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLane3

open Idealize.ShloMosaic Idealize.ShloMosaic.ValueIdx

variable {α : Type}

/-- An `[a, b]` array cast to `[a, b, 1]` reads, at `(i, j, u)`, the operand at `(i, j)`: both flatten to `i·b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one lane of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row at `(i, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand's one matrix at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Reducing `[a, b, c]` along its last axis: the index `(i, j)` of the result with the coordinate `k` put back is `(i, j, k)`. -/
theorem lift_last {a b c : ℕ} (h : (⟨3, ![a, b, c]⟩ : Shape).Reduces [(2 : Fin 3)] ⟨2, ![a, b]⟩) (i : Fin a) (j : Fin b) (k : Fin c) :
    h.lift (ix2 i j) k = ix3 i j k := by
  funext ax
  match ax with
  | ⟨0, _⟩ => exact Fin.ext rfl
  | ⟨1, _⟩ => exact Fin.ext rfl
  | ⟨2, _⟩ => exact Fin.ext rfl

variable {φ : FTy}

/-- The maximum along the last axis of an `[a, b, c]` array of extended reals, at `(i, j)`: the fold of `max` from the
    accumulator's value over the lane coordinate. -/
theorem laneMax_apply {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (j : Fin b) :
    multiReduction .maximumf [(2 : Fin 3)] ⟨2, ![a, b]⟩ src acc h hφ hacc (ix2 i j)
      = (Finset.univ : Finset (Fin c)).fold max (Ideal.ofBits φ acc) (fun k => src (ix3 i j k)) := by
  rw [Ideal.multiReduction_maximumf_single]
  have e : (src ∘ h.lift (ix2 i j)) = fun k => src (ix3 i j k) := funext fun k => congrArg src (lift_last h i j k)
  rw [e]
  rfl

/-- The sum along the last axis of an `[a, b, c]` array of extended reals, at `(i, j)`. -/
theorem laneSum_apply {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (j : Fin b) :
    multiReduction .add [(2 : Fin 3)] ⟨2, ![a, b]⟩ src acc h hφ hacc (ix2 i j) = ∑ k : Fin c, src (ix3 i j k) := by
  rw [Ideal.multiReduction_add_single]
  exact Finset.sum_congr rfl fun k _ => congrArg src (lift_last h i j k)

end Cert.LibLane3

end
-- ==== Proof.Payloads.lean ====
/-
  The two grids' block computations, read at an entry.

  First grid, on a block of 1000 rows: entry (p, q) of the stored hidden block is the sum over k of
  ((1 + e) · x (p, k) + a (p, k)) · w (k, q), plus b (q); lane q of every sublane of the first statistics block is the
  sum over the block's rows of that entry, and of the second the sum of its squares.
  Second grid, on a block of 1000 rows: entry (p, c) is the sum over d of
  max (((h (p, d) − mu (d)) · rsqrt (va (d) + eps)) · g (d) + bt (d)) 0 times w (d, c), plus b (c).
  A change of float format is the identity on extended reals, and a product into the zero accumulator is the plain sum.
-/
import proofs.«150048_j21801253995167_2_alg».proof.Proof.Gen.KernelIdeal.Skeleton
import proofs.«150048_j21801253995167_2_alg».proof.Proof.Spec
import proofs.«150048_j21801253995167_2_alg».proof.Proof.LibPlainMatmul
import proofs.«150048_j21801253995167_2_alg».proof.Proof.LibRowBias
import proofs.«150048_j21801253995167_2_alg».proof.Proof.LibLane3
import Idealize.ShloMosaic.Lib.ValueIdx
import Idealize.ShloMosaic.Lib.Pipeline.Value
import Idealize.ShloMosaic.PureOps.Ideal.Laws

noncomputable section

open scoped BigOperators

namespace Cert.Bn.Pay

open Idealize.ShloMosaic Idealize.ShloMosaic.ValueIdx Cert.KernelIdeal Cert.KernelIdeal.Gen

/-- A single entry broadcast over a whole block holds that entry everywhere. -/
theorem bcast11_apply {α : Type} {B n : Nat} (y : (⟨2, ![1, 1]⟩ : Shape).Idx → α)
    (h : Shape.Broadcasts (⟨2, ![1, 1]⟩ : Shape) (⟨2, ![B, n]⟩ : Shape)) (p : Fin B) (q : Fin n) :
    broadcastTo (⟨2, ![B, n]⟩ : Shape) y h (ix2 p q) = y (ix2 (0 : Fin 1) (0 : Fin 1)) :=
  broadcastTo_apply y h (ix2 p q) (ix2 (0 : Fin 1) (0 : Fin 1)) (fun a => match a with
    | ⟨0, _⟩ => by
        show 0 = if (1 : Nat) = 1 then 0 else p.val
        rw [if_pos rfl]
    | ⟨1, _⟩ => by
        show 0 = if (1 : Nat) = 1 then 0 else q.val
        rw [if_pos rfl])

/-- The block product's placement facts: the left operand is read at (row, k), the right one at (k, column). -/
theorem dotL0 (j : S1000x256.Idx) (q : dot_S1000x256_S256x256_S1000x256_1_0_0_1_n_n.contr.Idx) :
    (dot_S1000x256_S256x256_S1000x256_1_0_0_1_n_n.lhsIdx j q 0).val = (j 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem dotL1 (j : S1000x256.Idx) (q : dot_S1000x256_S256x256_S1000x256_1_0_0_1_n_n.contr.Idx) :
    (dot_S1000x256_S256x256_S1000x256_1_0_0_1_n_n.lhsIdx j q 1).val = (q ⟨0, by decide⟩).val :=
  dot_S1000x256_S256x256_S1000x256_1_0_0_1_n_n.lhsIdx_val_of_single rfl j q
theorem dotR0 (j : S1000x256.Idx) (q : dot_S1000x256_S256x256_S1000x256_1_0_0_1_n_n.contr.Idx) :
    (dot_S1000x256_S256x256_S1000x256_1_0_0_1_n_n.rhsIdx j q 0).val = (q ⟨0, by decide⟩).val :=
  dot_S1000x256_S256x256_S1000x256_1_0_0_1_n_n.rhsIdx_val_of_single rfl j q
theorem dotR1 (j : S1000x256.Idx) (q : dot_S1000x256_S256x256_S1000x256_1_0_0_1_n_n.contr.Idx) :
    (dot_S1000x256_S256x256_S1000x256_1_0_0_1_n_n.rhsIdx j q 1).val = (j 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The block product into the zero accumulator at entry (p, c): the sum over k of left (p, k) · right (k, c). -/
theorem blockDot_apply {φ₁ φ₂ : FTy} (l : FVec Ideal S1000x256 φ₁) (r : FVec Ideal S256x256 φ₂) (p : Fin 1000) (c : Fin 256) :
    matmul dot_S1000x256_S256x256_S1000x256_1_0_0_1_n_n none l r (constant (F := Ideal) S1000x256 .f32 0x00000000#32) (ix2 p c)
      = ∑ k : Fin 256, l (ix2 p k) * r (ix2 k c) :=
  Cert.PlainMatmul.matmul_zero_apply dot_S1000x256_S256x256_S1000x256_1_0_0_1_n_n rfl rfl dotL0 dotL1 dotR0 dotR1 none l r p c

/-- Entry (p, q) of the first grid's hidden block. -/
theorem hidden_at (e : Vec Ideal S1x1 .f32) (x a : Vec Ideal S1000x256 .f32) (w : Vec Ideal S256x256 .bf16) (b : Vec Ideal S1x256 .f32)
    (p : Fin 1000) (q : Fin 256) :
    k0_pay1 (F := Ideal) e x a w b (ix2 p q)
      = (∑ k : Fin 256, ((oneC + e (ix2 (0 : Fin 1) (0 : Fin 1))) * x (ix2 p k) + a (ix2 p k)) * w (ix2 k q)) + b (ix2 (0 : Fin 1) q) := by
  unfold k0_pay1
  simp only [shapeCast_self]
  refine (addf_apply _ _ (ix2 p q)).trans ?_
  rw [blockDot_apply, Cert.RowBias.bcastRow_apply]
  refine congrArg (· + b (ix2 (0 : Fin 1) q)) (Finset.sum_congr rfl fun k _ => ?_)
  refine congrArg (· * w (ix2 k q)) ?_
  show (broadcastTo S1000x256 (addf (broadcast S1x1 (Scalar.ofBits (F := Ideal) .f32 0x3F800000#32)) e) broadcasts_S1x1_S1000x256) (ix2 p k) * x (ix2 p k) + a (ix2 p k) = _
  rw [bcast11_apply]
  rfl

/-- The vector unit's sum down the rows of a block (its accumulator the zero word, the sum's neutral element) is, in
    lane `q`, the sum over the block's rows of the entries of column `q`. -/
theorem colSum_apply {B n : Nat} (v : FVec Ideal (⟨2, ![B, n]⟩ : Shape) .f32)
    (h : Shape.Reduces (⟨2, ![B, n]⟩ : Shape) [(0 : Fin 2)] (⟨1, ![n]⟩ : Shape)) (hφ : FKind.Formats .f32)
    (hacc : (0x00000000#32 : BitVec 32) = FKind.add.neutral .f32 hφ) (q : Fin n) :
    multiReduction .add [(0 : Fin 2)] (⟨1, ![n]⟩ : Shape) v 0x00000000#32 h hφ hacc (ix1 q) = ∑ k : Fin B, v (ix2 k q) := by
  refine (Ideal.multiReduction_add_single v 0x00000000#32 h hφ hacc (ix1 q)).trans ?_
  refine Finset.sum_congr rfl fun k _ => ?_
  exact congrArg v (funext fun a => Fin.ext (by match a with | ⟨0, _⟩ => rfl | ⟨1, _⟩ => rfl))

/-- Lane `q` of every sublane of the first statistics block: the sum over the block's rows of the hidden entries. -/
theorem sums_at (e : Vec Ideal S1x1 .f32) (x a : Vec Ideal S1000x256 .f32) (w : Vec Ideal S256x256 .bf16) (b : Vec Ideal S1x256 .f32)
    (s : Fin 8) (q : Fin 256) :
    k0_pay2 (F := Ideal) e x a w b (ix3 (0 : Fin 1) s q) = ∑ r : Fin 1000, k0_pay1 (F := Ideal) e x a w b (ix2 r q) := by
  unfold k0_pay2
  simp only [shapeCast_self]
  refine (Cert.LibLane3.broadcastTo_a1c_abc_apply _ _ (0 : Fin 1) s q).trans ?_
  refine (Cert.LibLane3.shapeCast_ab_a1b_apply _ _ (0 : Fin 1) (0 : Fin 1) q).trans ?_
  refine (Cert.RowBias.castRow_apply _ _ q).trans ?_
  exact colSum_apply _ _ _ _ q

/-- Lane `q` of every sublane of the second statistics block: the sum over the block's rows of the squared hidden entries. -/
theorem sqsums_at (e : Vec Ideal S1x1 .f32) (x a : Vec Ideal S1000x256 .f32) (w : Vec Ideal S256x256 .bf16) (b : Vec Ideal S1x256 .f32)
    (s : Fin 8) (q : Fin 256) :
    k0_pay3 (F := Ideal) e x a w b (ix3 (0 : Fin 1) s q)
      = ∑ r : Fin 1000, k0_pay1 (F := Ideal) e x a w b (ix2 r q) * k0_pay1 (F := Ideal) e x a w b (ix2 r q) := by
  unfold k0_pay3
  simp only [shapeCast_self]
  refine (Cert.LibLane3.broadcastTo_a1c_abc_apply _ _ (0 : Fin 1) s q).trans ?_
  refine (Cert.LibLane3.shapeCast_ab_a1b_apply _ _ (0 : Fin 1) (0 : Fin 1) q).trans ?_
  refine (Cert.RowBias.castRow_apply _ _ q).trans ?_
  refine (colSum_apply _ _ _ _ q).trans ?_
  rfl

/-- Entry (p, c) of the second grid's block. -/
theorem out_at (h : Vec Ideal S1000x256 .f32) (mu va g bt : Vec Ideal S1x256 .f32) (w : Vec Ideal S256x256 .bf16) (b : Vec Ideal S1x256 .f32)
    (p : Fin 1000) (c : Fin 256) :
    k1_pay1 (F := Ideal) h mu va g bt w b (ix2 p c)
      = (∑ d : Fin 256, max ((h (ix2 p d) - mu (ix2 (0 : Fin 1) d)) * Ideal.rsqrt (va (ix2 (0 : Fin 1) d) + epsC) * g (ix2 (0 : Fin 1) d)
          + bt (ix2 (0 : Fin 1) d)) zeroC * w (ix2 d c)) + b (ix2 (0 : Fin 1) c) := by
  unfold k1_pay1
  simp only [shapeCast_self]
  refine (addf_apply _ _ (ix2 p c)).trans ?_
  rw [blockDot_apply, Cert.RowBias.bcastRow_apply]
  refine congrArg (· + b (ix2 (0 : Fin 1) c)) (Finset.sum_congr rfl fun d _ => ?_)
  refine congrArg (· * w (ix2 d c)) ?_
  show max (((h (ix2 p d) - (broadcastTo S1000x256 mu broadcasts_S1x256_S1000x256) (ix2 p d))
      * (broadcastTo S1000x256 (rsqrt (addf va (broadcast S1x256 (Scalar.ofBits (F := Ideal) .f32 0x3727C5AC#32)))) broadcasts_S1x256_S1000x256) (ix2 p d))
      * (broadcastTo S1000x256 g broadcasts_S1x256_S1000x256) (ix2 p d)
      + (broadcastTo S1000x256 bt broadcasts_S1x256_S1000x256) (ix2 p d)) (Ideal.ofBits .f32 0x00000000#32) = _
  rw [Cert.RowBias.bcastRow_apply, Cert.RowBias.bcastRow_apply, Cert.RowBias.bcastRow_apply, Cert.RowBias.bcastRow_apply]
  rfl

end Cert.Bn.Pay

end
-- ==== Proof.R0Value.lean ====
/-
  What the first grid of blocks leaves in its three output arrays.

  The grid has ten points; point t works on rows 1000·t … 1000·t + 999 of the node array and of the aggregated messages,
  and reads the three small operands whole.  Each point's hidden block is the block of ONE array — the hidden rows of the
  layer — so the ten write-backs, which tile the 10000 rows, leave that array; and block t of each statistics array holds,
  in every sublane, the column sums (or the column sums of squares) of hidden rows 1000·t … 1000·t + 999.
-/
import proofs.«150048_j21801253995167_2_alg».proof.Proof.Gen.KernelIdeal.Frame
import proofs.«150048_j21801253995167_2_alg».proof.Proof.Payloads

set_option maxRecDepth 16384

noncomputable section

open scoped BigOperators

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bn

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the row-blocked windows sit at block t, the small operands at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

theorem t_lt (t : Fin cfg0.N) : t.val < 10 := by
  have h : cfg0.N = 10 := N_0
  have := t.isLt
  omega

/-- Point t as a block number, and row p of its block as a row of the array. -/
def blk10 (t : Fin cfg0.N) : Fin 10 := ⟨t.val, t_lt t⟩
def brow (t : Fin cfg0.N) (p : Fin 1000) : Fin 10000 := row (blk10 t) p

theorem brow_val (t : Fin cfg0.N) (p : Fin 1000) : (brow t p).val = 1000 * t.val + p.val := rfl

/-! ## The input blocks read where the point's rows are -/

theorem rd0 (c : Dev nD) (t : Fin cfg0.N) (p : Fin 1000) (k : Fin 256) :
    iblk0 V c 0 t (ix2 p k) = V c main_arg0 (ix2 (brow t p) k) := by
  show V c main_arg0 (((cfg0.win 0).blk t).view.emb (ix2 p k)) = V c main_arg0 (ix2 (brow t p) k)
  refine congrArg _ (funext fun a => Fin.ext ?_)
  obtain ⟨e0, e1, -⟩ := idx_facts t
  match a with
  | ⟨0, _⟩ => show win0_0.index t (0 : Fin 2) * 1000 + 1 * p.val = 1000 * t.val + p.val; omega
  | ⟨1, _⟩ => show win0_0.index t (1 : Fin 2) * 256 + 1 * k.val = k.val; omega

theorem rd1 (c : Dev nD) (t : Fin cfg0.N) (p : Fin 1000) (k : Fin 256) :
    iblk0 V c 1 t (ix2 p k) = V c main_v14 (ix2 (brow t p) k) := by
  show V c main_v14 (((cfg0.win 1).blk t).view.emb (ix2 p k)) = V c main_v14 (ix2 (brow t p) k)
  refine congrArg _ (funext fun a => Fin.ext ?_)
  obtain ⟨-, -, e0, e1, -⟩ := idx_facts t
  match a with
  | ⟨0, _⟩ => show win0_1.index t (0 : Fin 2) * 1000 + 1 * p.val = 1000 * t.val + p.val; omega
  | ⟨1, _⟩ => show win0_1.index t (1 : Fin 2) * 256 + 1 * k.val = k.val; omega

theorem rd2 (c : Dev nD) (t : Fin cfg0.N) :
    iblk0 V c 2 t (ix2 (0 : Fin 1) (0 : Fin 1)) = V c main_v19 (ix2 (0 : Fin 1) (0 : Fin 1)) := by
  show V c main_v19 (((cfg0.win 2).blk t).view.emb (ix2 (0 : Fin 1) (0 : Fin 1))) = V c main_v19 (ix2 (0 : Fin 1) (0 : Fin 1))
  refine congrArg _ (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 1 + 1 * 0 = 0; omega

theorem rd3 (c : Dev nD) (t : Fin cfg0.N) (k q : Fin 256) :
    iblk0 V c 3 t (ix2 k q) = V c main_v20 (ix2 k q) := by
  show V c main_v20 (((cfg0.win 3).blk t).view.emb (ix2 k q)) = V c main_v20 (ix2 k q)
  refine congrArg _ (funext fun a => Fin.ext ?_)
  obtain ⟨-, -, -, -, -, -, e0, e1, -⟩ := idx_facts t
  match a with
  | ⟨0, _⟩ => show win0_3.index t (0 : Fin 2) * 256 + 1 * k.val = k.val; omega
  | ⟨1, _⟩ => show win0_3.index t (1 : Fin 2) * 256 + 1 * q.val = q.val; omega

theorem rd4 (c : Dev nD) (t : Fin cfg0.N) (q : Fin 256) :
    iblk0 V c 4 t (ix2 (0 : Fin 1) q) = V c main_v15 (ix2 (0 : Fin 1) q) := by
  show V c main_v15 (((cfg0.win 4).blk t).view.emb (ix2 (0 : Fin 1) q)) = V c main_v15 (ix2 (0 : Fin 1) q)
  refine congrArg _ (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 256 + 1 * q.val = q.val; omega

/-- The hidden rows as the region finds its five operand arrays. -/
def hidV (c : Dev nD) : Fin 10000 → Fin 256 → EReal :=
  hid (V c main_v19 (ix2 (0 : Fin 1) (0 : Fin 1))) (m2 (V c main_arg0)) (m2 (V c main_v14)) (m2 (V c main_v20))
    (fun d => V c main_v15 (ix2 (0 : Fin 1) d))

/-- Entry (p, q) of point t's hidden block is the hidden entry of row 1000·t + p. -/
theorem hidden_blk (c : Dev nD) (t : Fin cfg0.N) (p : Fin 1000) (q : Fin 256) :
    k0_pay1 (F := Ideal) (iblk0 V c 2 t) (iblk0 V c 0 t) (iblk0 V c 1 t) (iblk0 V c 3 t) (iblk0 V c 4 t) (ix2 p q)
      = hidV V c (brow t p) q := by
  refine (Cert.Bn.Pay.hidden_at (iblk0 V c 2 t) (iblk0 V c 0 t) (iblk0 V c 1 t) (iblk0 V c 3 t) (iblk0 V c 4 t) p q).trans ?_
  simp only [rd0 V c t, rd1 V c t, rd2 V c t, rd3 V c t, rd4 V c t]
  rfl

/-! ## Window 5: the hidden rows -/

def G5 (c : Dev nD) : S10000x256.Idx → EReal := fun i => hidV V c (i 0) (i 1)

theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz2]
  simp only [View.ld_unit_zero (S := S1x1) hz2, View.ld_unit_zero (S := S1000x256) hz2, View.ld_unit_zero (S := S256x256) hz2,
    View.ld_unit_zero (S := S1x256) hz2]
  funext j
  obtain ⟨p, q, rfl⟩ : ∃ (p : Fin 1000) (q : Fin 256), j = ix2 p q := ⟨j 0, j 1, eq_ix2 j⟩
  show k0_pay1 (F := Ideal) (iblk0 V c 2 t) (iblk0 V c 0 t) (iblk0 V c 1 t) (iblk0 V c 3 t) (iblk0 V c 4 t) (ix2 p q)
    = G5 V c (((cfg0.win 5).blk t).view.emb (ix2 p q))
  rw [hidden_blk]
  have he : ((cfg0.win 5).blk t).view.emb (ix2 p q) = ix2 (brow t p) q := by
    refine funext fun a => Fin.ext ?_
    obtain ⟨-, -, -, -, -, -, -, -, -, -, e0, e1, -⟩ := idx_facts t
    match a with
    | ⟨0, _⟩ => show win0_5.index t (0 : Fin 2) * 1000 + 1 * p.val = 1000 * t.val + p.val; omega
    | ⟨1, _⟩ => show win0_5.index t (1 : Fin 2) * 256 + 1 * q.val = q.val; omega
  rw [he]
  rfl

theorem mem_blk5 (t : Fin cfg0.N) (i : S10000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v22_0).slice (win0_5.rect t)).set ↔ _
  rw [View.set_slice_whole, Rect.mem_set_unit]
  exact Iff.rfl

theorem cover5 (i : S10000x256.Idx) : ∃ t : Fin cfg0.N, (cfg0.win 5).flush t = true ∧ i ∈ ((cfg0.win 5).blk t).view.set := by
  have hi0 : (i 0).val < 10000 := (i 0).isLt
  have hi1 : (i 1).val < 256 := (i 1).isLt
  have hN : cfg0.N = 10 := N_0
  let t : Fin cfg0.N := ⟨(i 0).val / 1000, by omega⟩
  refine ⟨t, flush0_5 t, ?_⟩
  rw [mem_blk5]
  obtain ⟨-, -, -, -, -, -, -, -, -, -, e0, e1, -⟩ := idx_facts t
  have ht : t.val = (i 0).val / 1000 := rfl
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 256 ≤ (i 1).val ∧ (i 1).val < win0_5.index t (1 : Fin 2) * 256 + 256; omega

/-- After the grid the first output array holds the hidden rows. -/
theorem final5 (c : Dev nD) : (dat0 V c).arrAt 5 cfg0.N = G5 V c :=
  (dat0 V c).arrAt_eq_of_cover 5 (G5 V c) (fun t _ => flushed5_eq V c t) cover5

/-! ## Window 6: the blocks' column sums -/

def G6 (c : Dev nD) : S10x8x256.Idx → EReal := fun i => ∑ r : Fin 1000, hidV V c (row (i 0) r) (i 2)

theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz3]
  simp only [View.ld_unit_zero (S := S1x1) hz2, View.ld_unit_zero (S := S1000x256) hz2, View.ld_unit_zero (S := S256x256) hz2,
    View.ld_unit_zero (S := S1x256) hz2]
  funext j
  obtain ⟨u, s, q, rfl⟩ : ∃ (u : Fin 1) (s : Fin 8) (q : Fin 256), j = ix3 u s q := ⟨j 0, j 1, j 2, eq_ix3 j⟩
  obtain rfl : u = 0 := Subsingleton.elim _ _
  show k0_pay2 (F := Ideal) (iblk0 V c 2 t) (iblk0 V c 0 t) (iblk0 V c 1 t) (iblk0 V c 3 t) (iblk0 V c 4 t) (ix3 (0 : Fin 1) s q)
    = G6 V c (((cfg0.win 6).blk t).view.emb (ix3 (0 : Fin 1) s q))
  refine (Cert.Bn.Pay.sums_at (iblk0 V c 2 t) (iblk0 V c 0 t) (iblk0 V c 1 t) (iblk0 V c 3 t) (iblk0 V c 4 t) s q).trans ?_
  have he : ((cfg0.win 6).blk t).view.emb (ix3 (0 : Fin 1) s q) = ix3 (blk10 t) s q := by
    refine funext fun a => Fin.ext ?_
    obtain ⟨-, -, -, -, -, -, -, -, -, -, -, -, e60, e61, e62, e70, e71, e72⟩ := idx_facts t
    match a with
    | ⟨0, _⟩ => show win0_6.index t (0 : Fin 3) * 1 + 1 * 0 = t.val; omega
    | ⟨1, _⟩ => show win0_6.index t (1 : Fin 3) * 8 + 1 * s.val = s.val; omega
    | ⟨2, _⟩ => show win0_6.index t (2 : Fin 3) * 256 + 1 * q.val = q.val; omega
  rw [he]
  show _ = ∑ r : Fin 1000, hidV V c (row (blk10 t) r) q
  refine Finset.sum_congr rfl fun r _ => ?_
  rw [hidden_blk]
  rfl

theorem mem_blk6 (t : Fin cfg0.N) (i : S10x8x256.Idx) :
    i ∈ ((cfg0.win 6).blk t).view.set ↔ ∀ a : Fin 3, win0_6.index t a * S1x8x256.size a ≤ (i a).val ∧ (i a).val < win0_6.index t a * S1x8x256.size a + S1x8x256.size a := by
  show i ∈ ((View.whole main_v22_1).slice (win0_6.rect t)).set ↔ _
  rw [View.set_slice_whole, Rect.mem_set_unit]
  exact Iff.rfl

theorem cover6 (i : S10x8x256.Idx) : ∃ t : Fin cfg0.N, (cfg0.win 6).flush t = true ∧ i ∈ ((cfg0.win 6).blk t).view.set := by
  have hi0 : (i 0).val < 10 := (i 0).isLt
  have hi1 : (i 1).val < 8 := (i 1).isLt
  have hi2 : (i 2).val < 256 := (i 2).isLt
  have hN : cfg0.N = 10 := N_0
  let t : Fin cfg0.N := ⟨(i 0).val, by omega⟩
  refine ⟨t, flush0_6 t, ?_⟩
  rw [mem_blk6]
  obtain ⟨-, -, -, -, -, -, -, -, -, -, -, -, e60, e61, e62, e70, e71, e72⟩ := idx_facts t
  have ht : t.val = (i 0).val := rfl
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8 ≤ (i 1).val ∧ (i 1).val < win0_6.index t (1 : Fin 3) * 8 + 8; omega
  | ⟨2, _⟩ => show win0_6.index t (2 : Fin 3) * 256 ≤ (i 2).val ∧ (i 2).val < win0_6.index t (2 : Fin 3) * 256 + 256; omega

/-- After the grid this statistics array holds, in block b and every sublane, the column sums of hidden rows 1000·b … 1000·b + 999. -/
theorem final6 (c : Dev nD) : (dat0 V c).arrAt 6 cfg0.N = G6 V c :=
  (dat0 V c).arrAt_eq_of_cover 6 (G6 V c) (fun t _ => flushed6_eq V c t) cover6

/-! ## Window 7: the blocks' column sums of squares -/

def G7 (c : Dev nD) : S10x8x256.Idx → EReal := fun i => ∑ r : Fin 1000, hidV V c (row (i 0) r) (i 2) * hidV V c (row (i 0) r) (i 2)

theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  unfold out0_7
  rw [View.canon_unit_zero hz3]
  simp only [View.ld_unit_zero (S := S1x1) hz2, View.ld_unit_zero (S := S1000x256) hz2, View.ld_unit_zero (S := S256x256) hz2,
    View.ld_unit_zero (S := S1x256) hz2]
  funext j
  obtain ⟨u, s, q, rfl⟩ : ∃ (u : Fin 1) (s : Fin 8) (q : Fin 256), j = ix3 u s q := ⟨j 0, j 1, j 2, eq_ix3 j⟩
  obtain rfl : u = 0 := Subsingleton.elim _ _
  show k0_pay3 (F := Ideal) (iblk0 V c 2 t) (iblk0 V c 0 t) (iblk0 V c 1 t) (iblk0 V c 3 t) (iblk0 V c 4 t) (ix3 (0 : Fin 1) s q)
    = G7 V c (((cfg0.win 7).blk t).view.emb (ix3 (0 : Fin 1) s q))
  refine (Cert.Bn.Pay.sqsums_at (iblk0 V c 2 t) (iblk0 V c 0 t) (iblk0 V c 1 t) (iblk0 V c 3 t) (iblk0 V c 4 t) s q).trans ?_
  have he : ((cfg0.win 7).blk t).view.emb (ix3 (0 : Fin 1) s q) = ix3 (blk10 t) s q := by
    refine funext fun a => Fin.ext ?_
    obtain ⟨-, -, -, -, -, -, -, -, -, -, -, -, e60, e61, e62, e70, e71, e72⟩ := idx_facts t
    match a with
    | ⟨0, _⟩ => show win0_7.index t (0 : Fin 3) * 1 + 1 * 0 = t.val; omega
    | ⟨1, _⟩ => show win0_7.index t (1 : Fin 3) * 8 + 1 * s.val = s.val; omega
    | ⟨2, _⟩ => show win0_7.index t (2 : Fin 3) * 256 + 1 * q.val = q.val; omega
  rw [he]
  show _ = ∑ r : Fin 1000, hidV V c (row (blk10 t) r) q * hidV V c (row (blk10 t) r) q
  refine Finset.sum_congr rfl fun r _ => ?_
  rw [hidden_blk]
  rfl

theorem mem_blk7 (t : Fin cfg0.N) (i : S10x8x256.Idx) :
    i ∈ ((cfg0.win 7).blk t).view.set ↔ ∀ a : Fin 3, win0_7.index t a * S1x8x256.size a ≤ (i a).val ∧ (i a).val < win0_7.index t a * S1x8x256.size a + S1x8x256.size a := by
  show i ∈ ((View.whole main_v22_2).slice (win0_7.rect t)).set ↔ _
  rw [View.set_slice_whole, Rect.mem_set_unit]
  exact Iff.rfl

theorem cover7 (i : S10x8x256.Idx) : ∃ t : Fin cfg0.N, (cfg0.win 7).flush t = true ∧ i ∈ ((cfg0.win 7).blk t).view.set := by
  have hi0 : (i 0).val < 10 := (i 0).isLt
  have hi1 : (i 1).val < 8 := (i 1).isLt
  have hi2 : (i 2).val < 256 := (i 2).isLt
  have hN : cfg0.N = 10 := N_0
  let t : Fin cfg0.N := ⟨(i 0).val, by omega⟩
  refine ⟨t, flush0_7 t, ?_⟩
  rw [mem_blk7]
  obtain ⟨-, -, -, -, -, -, -, -, -, -, -, -, e60, e61, e62, e70, e71, e72⟩ := idx_facts t
  have ht : t.val = (i 0).val := rfl
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 8 ≤ (i 1).val ∧ (i 1).val < win0_7.index t (1 : Fin 3) * 8 + 8; omega
  | ⟨2, _⟩ => show win0_7.index t (2 : Fin 3) * 256 ≤ (i 2).val ∧ (i 2).val < win0_7.index t (2 : Fin 3) * 256 + 256; omega

/-- After the grid this statistics array holds, in block b and every sublane, the column sums of squares of hidden rows 1000·b … 1000·b + 999. -/
theorem final7 (c : Dev nD) : (dat0 V c).arrAt 7 cfg0.N = G7 V c :=
  (dat0 V c).arrAt_eq_of_cover 7 (G7 V c) (fun t _ => flushed7_eq V c t) cover7

end Cert.KernelIdeal.R0

end
-- ==== Proof.R1Value.lean ====
/-
  What the second grid of blocks leaves in its output array.

  The grid has ten points; point t works on hidden rows 1000·t … 1000·t + 999 and reads the two statistics rows, the scale,
  the shift, the second weight matrix and its bias whole.  Each point's block is the block of ONE array — entry (i, c) is the
  sum over d of the normalised, scaled, shifted and cut hidden entry (i, d) times the weight (d, c), plus the bias (c) — so
  the ten write-backs, which tile the 10000 rows, leave that array.
-/
import proofs.«150048_j21801253995167_2_alg».proof.Proof.Gen.KernelIdeal.Frame
import proofs.«150048_j21801253995167_2_alg».proof.Proof.Payloads

set_option maxRecDepth 16384

noncomputable section

open scoped BigOperators

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Bn

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the row-blocked windows sit at block t, the whole operands at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 10 := by
  have h : cfg1.N = 10 := N_1
  have := t.isLt
  omega

/-- Row p of point t's block as a row of the array. -/
def brow (t : Fin cfg1.N) (p : Fin 1000) : Fin 10000 := row ⟨t.val, t_lt t⟩ p

/-! ## The input blocks read where the point's rows are -/

theorem rd0 (c : Dev nD) (t : Fin cfg1.N) (p : Fin 1000) (k : Fin 256) :
    iblk1 V c 0 t (ix2 p k) = V c main_v22_0 (ix2 (brow t p) k) := by
  show V c main_v22_0 (((cfg1.win 0).blk t).view.emb (ix2 p k)) = V c main_v22_0 (ix2 (brow t p) k)
  refine congrArg _ (funext fun a => Fin.ext ?_)
  obtain ⟨e0, e1, -⟩ := idx_facts t
  match a with
  | ⟨0, _⟩ => show win1_0.index t (0 : Fin 2) * 1000 + 1 * p.val = 1000 * t.val + p.val; omega
  | ⟨1, _⟩ => show win1_0.index t (1 : Fin 2) * 256 + 1 * k.val = k.val; omega

theorem rd1 (c : Dev nD) (t : Fin cfg1.N) (q : Fin 256) :
    iblk1 V c 1 t (ix2 (0 : Fin 1) q) = V c main_v37 (ix2 (0 : Fin 1) q) := by
  show V c main_v37 (((cfg1.win 1).blk t).view.emb (ix2 (0 : Fin 1) q)) = V c main_v37 (ix2 (0 : Fin 1) q)
  refine congrArg _ (funext fun a => Fin.ext ?_)
  obtain ⟨-, -, e0, e1, -⟩ := idx_facts t
  match a with
  | ⟨0, _⟩ => show win1_1.index t (0 : Fin 2) * 1 + 1 * 0 = 0; omega
  | ⟨1, _⟩ => show win1_1.index t (1 : Fin 2) * 256 + 1 * q.val = q.val; omega

theorem rd2 (c : Dev nD) (t : Fin cfg1.N) (q : Fin 256) :
    iblk1 V c 2 t (ix2 (0 : Fin 1) q) = V c main_v38 (ix2 (0 : Fin 1) q) := by
  show V c main_v38 (((cfg1.win 2).blk t).view.emb (ix2 (0 : Fin 1) q)) = V c main_v38 (ix2 (0 : Fin 1) q)
  refine congrArg _ (funext fun a => Fin.ext ?_)
  obtain ⟨-, -, -, -, e0, e1, -⟩ := idx_facts t
  match a with
  | ⟨0, _⟩ => show win1_2.index t (0 : Fin 2) * 1 + 1 * 0 = 0; omega
  | ⟨1, _⟩ => show win1_2.index t (1 : Fin 2) * 256 + 1 * q.val = q.val; omega

theorem rd3 (c : Dev nD) (t : Fin cfg1.N) (q : Fin 256) :
    iblk1 V c 3 t (ix2 (0 : Fin 1) q) = V c main_v16 (ix2 (0 : Fin 1) q) := by
  show V c main_v16 (((cfg1.win 3).blk t).view.emb (ix2 (0 : Fin 1) q)) = V c main_v16 (ix2 (0 : Fin 1) q)
  refine congrArg _ (funext fun a => Fin.ext ?_)
  obtain ⟨-, -, -, -, -, -, e0, e1, -⟩ := idx_facts t
  match a with
  | ⟨0, _⟩ => show win1_3.index t (0 : Fin 2) * 1 + 1 * 0 = 0; omega
  | ⟨1, _⟩ => show win1_3.index t (1 : Fin 2) * 256 + 1 * q.val = q.val; omega

theorem rd4 (c : Dev nD) (t : Fin cfg1.N) (q : Fin 256) :
    iblk1 V c 4 t (ix2 (0 : Fin 1) q) = V c main_v17 (ix2 (0 : Fin 1) q) := by
  show V c main_v17 (((cfg1.win 4).blk t).view.emb (ix2 (0 : Fin 1) q)) = V c main_v17 (ix2 (0 : Fin 1) q)
  refine congrArg _ (funext fun a => Fin.ext ?_)
  obtain ⟨-, -, -, -, -, -, -, -, e0, e1, -⟩ := idx_facts t
  match a with
  | ⟨0, _⟩ => show win1_4.index t (0 : Fin 2) * 1 + 1 * 0 = 0; omega
  | ⟨1, _⟩ => show win1_4.index t (1 : Fin 2) * 256 + 1 * q.val = q.val; omega

theorem rd5 (c : Dev nD) (t : Fin cfg1.N) (k q : Fin 256) :
    iblk1 V c 5 t (ix2 k q) = V c main_v21 (ix2 k q) := by
  show V c main_v21 (((cfg1.win 5).blk t).view.emb (ix2 k q)) = V c main_v21 (ix2 k q)
  refine congrArg _ (funext fun a => Fin.ext ?_)
  obtain ⟨-, -, -, -, -, -, -, -, -, -, e0, e1, -⟩ := idx_facts t
  match a with
  | ⟨0, _⟩ => show win1_5.index t (0 : Fin 2) * 256 + 1 * k.val = k.val; omega
  | ⟨1, _⟩ => show win1_5.index t (1 : Fin 2) * 256 + 1 * q.val = q.val; omega

theorem rd6 (c : Dev nD) (t : Fin cfg1.N) (q : Fin 256) :
    iblk1 V c 6 t (ix2 (0 : Fin 1) q) = V c main_v18 (ix2 (0 : Fin 1) q) := by
  show V c main_v18 (((cfg1.win 6).blk t).view.emb (ix2 (0 : Fin 1) q)) = V c main_v18 (ix2 (0 : Fin 1) q)
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * 0 = 0; omega
  | ⟨1, _⟩ => show win1_6.index t (1 : Fin 2) * 256 + 1 * q.val = q.val; omega

/-- The row vectors the region finds, as functions of the lane. -/
def rowOf (v : S1x256.Idx → EReal) : Fin 256 → EReal := fun d => v (ix2 (0 : Fin 1) d)

/-- The output array as the region finds its seven operand arrays. -/
def G7 (c : Dev nD) : S10000x256.Idx → EReal := fun i =>
  outp (act (m2 (V c main_v22_0)) (rowOf (V c main_v37)) (rowOf (V c main_v38)) (rowOf (V c main_v16)) (rowOf (V c main_v17)))
    (m2 (V c main_v21)) (rowOf (V c main_v18)) (i 0) (i 1)

theorem flushed7_eq (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  unfold out1_7
  rw [View.canon_unit_zero hz2]
  simp only [View.ld_unit_zero (S := S1000x256) hz2, View.ld_unit_zero (S := S256x256) hz2, View.ld_unit_zero (S := S1x256) hz2]
  funext j
  obtain ⟨p, q, rfl⟩ : ∃ (p : Fin 1000) (q : Fin 256), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (ix2 p q)
    = G7 V c (((cfg1.win 7).blk t).view.emb (ix2 p q))
  refine (Cert.Bn.Pay.out_at (iblk1 V c 0 t) (iblk1 V c 1 t) (iblk1 V c 2 t) (iblk1 V c 3 t) (iblk1 V c 4 t) (iblk1 V c 5 t) (iblk1 V c 6 t) p q).trans ?_
  have he : ((cfg1.win 7).blk t).view.emb (ix2 p q) = ix2 (brow t p) q := by
    refine funext fun a => Fin.ext ?_
    obtain ⟨-, -, -, -, -, -, -, -, -, -, -, -, -, -, e0, e1⟩ := idx_facts t
    match a with
    | ⟨0, _⟩ => show win1_7.index t (0 : Fin 2) * 1000 + 1 * p.val = 1000 * t.val + p.val; omega
    | ⟨1, _⟩ => show win1_7.index t (1 : Fin 2) * 256 + 1 * q.val = q.val; omega
  rw [he]
  simp only [rd0 V c t, rd1 V c t, rd2 V c t, rd3 V c t, rd4 V c t, rd5 V c t, rd6 V c t]
  rfl

theorem mem_blk7 (t : Fin cfg1.N) (i : S10000x256.Idx) :
    i ∈ ((cfg1.win 7).blk t).view.set ↔ ∀ a : Fin 2, win1_7.index t a * S1000x256.size a ≤ (i a).val ∧ (i a).val < win1_7.index t a * S1000x256.size a + S1000x256.size a := by
  show i ∈ ((View.whole main_v39).slice (win1_7.rect t)).set ↔ _
  rw [View.set_slice_whole, Rect.mem_set_unit]
  exact Iff.rfl

theorem cover7 (i : S10000x256.Idx) : ∃ t : Fin cfg1.N, (cfg1.win 7).flush t = true ∧ i ∈ ((cfg1.win 7).blk t).view.set := by
  have hi0 : (i 0).val < 10000 := (i 0).isLt
  have hi1 : (i 1).val < 256 := (i 1).isLt
  have hN : cfg1.N = 10 := N_1
  let t : Fin cfg1.N := ⟨(i 0).val / 1000, by omega⟩
  refine ⟨t, flush1_7 t, ?_⟩
  rw [mem_blk7]
  obtain ⟨-, -, -, -, -, -, -, -, -, -, -, -, -, -, e0, e1⟩ := idx_facts t
  have ht : t.val = (i 0).val / 1000 := rfl
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 256 ≤ (i 1).val ∧ (i 1).val < win1_7.index t (1 : Fin 2) * 256 + 256; omega

/-- After the grid the output array holds the layer's result from the operand arrays as the region found them. -/
theorem final7 (c : Dev nD) : (dat1 V c).arrAt 7 cfg1.N = G7 V c :=
  (dat1 V c).arrAt_eq_of_cover 7 (G7 V c) (fun t _ => flushed7_eq V c t) cover7

end Cert.KernelIdeal.R1

end
-- ==== Proof.HostStats.lean ====
/-
  The column statistics as the program forms them between its two grids, read at an index.

  The first grid leaves two [10, 8, 256] arrays: in block `b`, row `0`, column `d` the first holds the sum of the
  hidden column `d` over the 1000 rows of block `b`, and the second the sum of the squares.  Between the grids the
  program takes row `0` of every block (a [10, 1, 256] slice, recast as [10, 256]), adds the ten rows (a sum over
  the first axis, from the initial value `0`), divides by the row count `10000`, forms the mean of the squares less
  the square of the mean, cuts it below at `0`, and recasts the two [256] vectors as single rows [1, 256].

  Read at column `d`:
  * the sum of the ten rows is `0 + ∑ b, P (b, 0, d)`;
  * the mean is that sum over `10000`;
  * the variance is `max (mean of Q − (mean of P)²) 0`;
  * the single row holds the vector's entry `d` in lane `d`.

  With the block sums in place these are the specification's blockwise mean and variance.
-/
import proofs.«150048_j21801253995167_2_alg».proof.KernelIdeal
import proofs.«150048_j21801253995167_2_alg».proof.Proof.Spec
import proofs.«150048_j21801253995167_2_alg».proof.Proof.LibRowBias
import Idealize.ShloMosaic.Lib.Pipeline.Value
import Idealize.ShloMosaic.Lib.ValueIdx
import Idealize.ShloMosaic.PureOps.Ideal.Laws

noncomputable section

open scoped BigOperators

namespace Cert.KernelIdeal.HostStats

open Idealize.ShloMosaic Idealize.ShloMosaic.ValueIdx Cert.KernelIdeal Cert.Bn

variable [Facts₀]
open Facts₀

/-- The ten blocks' first rows, added: a [256] vector. -/
def sumRows (P : FVec Ideal S10x8x256 .f32) : FVec Ideal S256 .f32 :=
  Host.reduceAdd (shapeCast _ (extractStridedSlice S10x1x256 ![0, 0, 0] P slices_S10x8x256_S10x1x256_0_0_0) shapeCasts_S10x1x256_S10x256) (constant (F := Ideal) S_ .f32 0x00000000#32) reducesTo_S10x256_S256_d0 h_S_

/-- Row `b`, column `d` of the [10, 256] array of first rows is entry `(b, 0, d)` of the [10, 8, 256] array: the
    slice keeps row `0` of each block, and the recast drops the axis of length one. -/
theorem firstRows_apply (P : FVec Ideal S10x8x256 .f32) (b : Fin 10) (d : Fin 256) :
    shapeCast S10x256 (extractStridedSlice S10x1x256 ![0, 0, 0] P slices_S10x8x256_S10x1x256_0_0_0)
      shapeCasts_S10x1x256_S10x256 (ix2 b d) = P (ix3 b (0 : Fin 8) d) := by
  rw [shapeCast_apply _ shapeCasts_S10x1x256_S10x256 (ix2 b d) (ix3 b (0 : Fin 1) d) (by
    rewrite [Shape.rowMajor_val_three, Shape.rowMajor_val_two]
    show (b.val * 1 + 0) * 256 + d.val = b.val * 256 + d.val
    omega)]
  exact extractStridedSlice_apply ![0, 0, 0] P slices_S10x8x256_S10x1x256_0_0_0 (ix3 b (0 : Fin 1) d)
    (ix3 b (0 : Fin 8) d) (fun a => match a with
      | ⟨0, _⟩ => by show b.val = 0 + b.val; omega
      | ⟨1, _⟩ => by show (0 : Nat) = 0 + 0; rfl
      | ⟨2, _⟩ => by show d.val = 0 + d.val; omega)

/-- Column `d` of the sum of the ten first rows: the initial value `0` plus the ten entries `(b, 0, d)`. -/
theorem sumRows_apply (P : FVec Ideal S10x8x256 .f32) (d : Fin 256) :
    sumRows P (ix1 d) = zeroC + ∑ b : Fin 10, P (ix3 b (0 : Fin 8) d) := by
  unfold sumRows
  simp only [Host.reduceAdd, Ideal.hostReduceAdd_def]
  rw [Ideal.hostReduceAdd_single reducesTo_S10x256_S256_d0 (by decide)]
  refine congrArg₂ (· + ·) rfl (Finset.sum_congr rfl fun k _ => ?_)
  have hk : ∀ h : S10x256.Reduces [0] S256, h.lift (ix1 d) k = ix2 (n0 := 10) (n1 := 256) k d := fun h =>
    funext fun a => Fin.ext (by match a with | ⟨0, _⟩ => rfl | ⟨1, _⟩ => rfl)
  rw [hk]
  exact firstRows_apply P k d

/-- The sum of the ten first rows over the row count. -/
def meanRow (P : FVec Ideal S10x8x256 .f32) : FVec Ideal S256 .f32 := Host.divf (sumRows P) (broadcastInDim S256 ![] bcast_S_S256 (constant (F := Ideal) S_ .f32 0x461C4000#32))

theorem meanRow_apply (P : FVec Ideal S10x8x256 .f32) (d : Fin 256) :
    meanRow P (ix1 d) = Ideal.div (zeroC + ∑ b : Fin 10, P (ix3 b (0 : Fin 8) d)) cntC := by
  unfold meanRow
  show Ideal.div (sumRows P (ix1 d))
    (broadcastInDim S256 ![] bcast_S_S256 (constant (F := Ideal) S_ .f32 0x461C4000#32) (ix1 d)) = _
  rw [sumRows_apply, broadcastInDim_apply _ bcast_S_S256 _ (ix1 d) ix0 (fun a => a.elim0)]
  rfl

/-- The mean of the squares less the square of the mean, cut below at zero. -/
def varRow (P Q : FVec Ideal S10x8x256 .f32) : FVec Ideal S256 .f32 := maximumf (subf (meanRow Q) (mulf (meanRow P) (meanRow P))) (broadcastInDim S256 ![] bcast_S_S256 (constant (F := Ideal) S_ .f32 0x00000000#32))

theorem varRow_apply (P Q : FVec Ideal S10x8x256 .f32) (d : Fin 256) :
    varRow P Q (ix1 d) = max (Ideal.div (zeroC + ∑ b : Fin 10, Q (ix3 b (0 : Fin 8) d)) cntC
      - meanRow P (ix1 d) * meanRow P (ix1 d)) zeroC := by
  unfold varRow
  show max (meanRow Q (ix1 d) - meanRow P (ix1 d) * meanRow P (ix1 d))
    (broadcastInDim S256 ![] bcast_S_S256 (constant (F := Ideal) S_ .f32 0x00000000#32) (ix1 d)) = _
  rw [meanRow_apply Q, broadcastInDim_apply _ bcast_S_S256 _ (ix1 d) ix0 (fun a => a.elim0)]
  rfl

/-- A [256] vector recast as a single row. -/
def asRow (v : FVec Ideal S256 .f32) : FVec Ideal S1x256 .f32 := shapeCast _ v shapeCasts_S256_S1x256

theorem asRow_apply (v : FVec Ideal S256 .f32) (d : Fin 256) : asRow v (ix2 (0 : Fin 1) d) = v (ix1 d) :=
  Cert.RowBias.castRow_apply v shapeCasts_S256_S1x256 d

/-- With each block's column sums in row `0` of the block, the program's mean is the blockwise mean. -/
theorem meanK_of_blocks (h : Fin 10000 → Fin 256 → EReal) (P : FVec Ideal S10x8x256 .f32)
    (hP : ∀ (b : Fin 10) (d : Fin 256), P (ix3 b (0 : Fin 8) d) = ∑ r : Fin 1000, h (row b r) d) (d : Fin 256) :
    meanRow P (ix1 d) = meanK h d := by
  rw [meanRow_apply, Finset.sum_congr rfl (fun b _ => hP b d)]
  rfl

/-- With each block's column sums and sums of squares in row `0` of the block, the program's variance is the
    blockwise variance. -/
theorem varK_of_blocks (h : Fin 10000 → Fin 256 → EReal) (P Q : FVec Ideal S10x8x256 .f32)
    (hP : ∀ (b : Fin 10) (d : Fin 256), P (ix3 b (0 : Fin 8) d) = ∑ r : Fin 1000, h (row b r) d)
    (hQ : ∀ (b : Fin 10) (d : Fin 256), Q (ix3 b (0 : Fin 8) d) = ∑ r : Fin 1000, h (row b r) d * h (row b r) d)
    (d : Fin 256) : varRow P Q (ix1 d) = varK h d := by
  rw [varRow_apply, meanK_of_blocks h P hP d, Finset.sum_congr rfl (fun b _ => hQ b d)]
  rfl

end Cert.KernelIdeal.HostStats

end
-- ==== Proof.KVal.lean ====
/-
  The idealized kernel's result array as one function of its argument arrays.

  Reading the program's segments in order: the host operations before the first grid leave the aggregated messages, the
  bias as one row, the guard's offset as one entry and the first weight matrix (its change of float format the identity);
  the first grid leaves the hidden rows and, block by block, their column sums and column sums of squares; the host
  operations between the grids add the ten blocks' sums, divide by the row count, and form the variance as the mean of the
  squares less the square of the mean, cut below at zero — the specification's blockwise statistics of the hidden rows;
  the second grid normalises, scales, shifts, cuts at zero and applies the second linear map.  So the result array is the
  specification's layer with the blockwise statistics.
-/
import proofs.«150048_j21801253995167_2_alg».proof.Proof.KRun
import proofs.«150048_j21801253995167_2_alg».proof.Proof.R0Value
import proofs.«150048_j21801253995167_2_alg».proof.Proof.R1Value
import proofs.«150048_j21801253995167_2_alg».proof.Proof.HostStats
import proofs.«150048_j21801253995167_2_alg».proof.Proof.Gen.ReferenceIdeal.Read
import Idealize.ShloMosaic.Lib.StableHlo.Run

set_option maxRecDepth 16384

noncomputable section

open scoped BigOperators

namespace Cert.KernelIdeal.KVal

open Idealize.ShloMosaic Idealize.ShloMosaic.TcCoe Idealize.ShloMosaic.ValueIdx Idealize.SL.Sem Idealize.ShloMosaic.StableHlo
open Cert.KernelIdeal Cert.KernelIdeal.Gen Cert.Bn

variable (m : (ℓ : Loc nD τ sig) → Buf (Elt Ideal) ℓ) (ρ : Dev nD → PrngReg)

/-- The result array the kernel leaves, as a function of the argument arrays: the layer with the blockwise statistics. -/
def kres (c : Dev nD) : S10000x256.Idx → EReal := fun i =>
  layer meanK varK ((m ((c.tc : Thread nD τ).loc main_arg9)) (ix1 (0 : Fin 1))) (m2 (m ((c.tc : Thread nD τ).loc main_arg0))) (m2 (Cert.ReferenceIdeal.Read.val_main_v14 (F := Ideal) (m ((c.tc : Thread nD τ).loc main_arg0)) (m ((c.tc : Thread nD τ).loc main_arg1)) (m ((c.tc : Thread nD τ).loc main_arg2)))) (m2 (m ((c.tc : Thread nD τ).loc main_arg3))) (m1 (m ((c.tc : Thread nD τ).loc main_arg4))) (m1 (m ((c.tc : Thread nD τ).loc main_arg5))) (m1 (m ((c.tc : Thread nD τ).loc main_arg6))) (m2 (m ((c.tc : Thread nD τ).loc main_arg7))) (m1 (m ((c.tc : Thread nD τ).loc main_arg8))) (i 0) (i 1)

/-! ## The buffers when the first grid is entered -/

theorem V1_arg0 (c : Dev nD) : (V1 m ρ c main_arg0 : S10000x256.Idx → EReal) = (m ((c.tc : Thread nD τ).loc main_arg0) : S10000x256.Idx → EReal) := by
  dsimp only [V1, W1, W0, hostOps0]
  after_results

set_option maxHeartbeats 4000000 in
theorem V1_v14 (c : Dev nD) : (V1 m ρ c main_v14 : S10000x256.Idx → EReal)
    = Cert.ReferenceIdeal.Read.val_main_v14 (F := Ideal) (m ((c.tc : Thread nD τ).loc main_arg0)) (m ((c.tc : Thread nD τ).loc main_arg1)) (m ((c.tc : Thread nD τ).loc main_arg2)) := by
  dsimp only [V1, W1, W0, hostOps0]
  after_results_simp <;> rfl

theorem V1_v19 (c : Dev nD) : (V1 m ρ c main_v19 : S1x1.Idx → EReal) = shapeCast _ (m ((c.tc : Thread nD τ).loc main_arg9)) shapeCasts_S1_S1x1 := by
  dsimp only [V1, W1, W0, hostOps0]
  after_results
  rfl

theorem V1_v15 (c : Dev nD) : (V1 m ρ c main_v15 : S1x256.Idx → EReal) = shapeCast _ (m ((c.tc : Thread nD τ).loc main_arg4)) shapeCasts_S256_S1x256 := by
  dsimp only [V1, W1, W0, hostOps0]
  after_results
  rfl

theorem V1_v20 (c : Dev nD) : (V1 m ρ c main_v20 : S256x256.Idx → EReal) = (m ((c.tc : Thread nD τ).loc main_arg3) : S256x256.Idx → EReal) := by
  dsimp only [V1, W1, W0, hostOps0]
  after_results
  rfl

/-- The hidden rows the first grid computes, from the argument arrays. -/
def hidM (c : Dev nD) : Fin 10000 → Fin 256 → EReal :=
  hid (m ((c.tc : Thread nD τ).loc main_arg9) (ix1 (0 : Fin 1))) (m2 (m ((c.tc : Thread nD τ).loc main_arg0)))
    (m2 (Cert.ReferenceIdeal.Read.val_main_v14 (F := Ideal) (m ((c.tc : Thread nD τ).loc main_arg0)) (m ((c.tc : Thread nD τ).loc main_arg1)) (m ((c.tc : Thread nD τ).loc main_arg2))))
    (m2 (m ((c.tc : Thread nD τ).loc main_arg3))) (m1 (m ((c.tc : Thread nD τ).loc main_arg4)))

theorem hidV1 (c : Dev nD) : R0.hidV (V1 m ρ) c = hidM m c := by
  unfold R0.hidV hidM
  have e19 : V1 m ρ c main_v19 (ix2 (0 : Fin 1) (0 : Fin 1)) = m ((c.tc : Thread nD τ).loc main_arg9) (ix1 (0 : Fin 1)) :=
    (congrFun (V1_v19 m ρ c) _).trans (Cert.RowBias.castRow_apply _ _ (0 : Fin 1))
  have e15 : (fun d : Fin 256 => V1 m ρ c main_v15 (ix2 (0 : Fin 1) d)) = m1 (m ((c.tc : Thread nD τ).loc main_arg4)) :=
    funext fun d => (congrFun (V1_v15 m ρ c) _).trans (Cert.RowBias.castRow_apply _ _ d)
  have e0 : m2 (V1 m ρ c main_arg0) = m2 (m ((c.tc : Thread nD τ).loc main_arg0)) := congrArg m2 (V1_arg0 m ρ c)
  have e14 : m2 (V1 m ρ c main_v14) = m2 (Cert.ReferenceIdeal.Read.val_main_v14 (F := Ideal) (m ((c.tc : Thread nD τ).loc main_arg0)) (m ((c.tc : Thread nD τ).loc main_arg1)) (m ((c.tc : Thread nD τ).loc main_arg2))) :=
    congrArg m2 (V1_v14 m ρ c)
  have e20 : m2 (V1 m ρ c main_v20) = m2 (m ((c.tc : Thread nD τ).loc main_arg3)) := congrArg m2 (V1_v20 m ρ c)
  rw [e19, e15, e0, e14, e20]

/-! ## The buffers when the second grid is entered -/

theorem W2_hidden (c : Dev nD) : (W2 m ρ c (Proc.devRef .tc main_v22_0) : S10000x256.Idx → EReal) = R0.G5 (V1 m ρ) c :=
  (W2_arr m ρ c 5).trans (R0.final5 (V1 m ρ) c)
theorem W2_sums (c : Dev nD) : (W2 m ρ c (Proc.devRef .tc main_v22_1) : S10x8x256.Idx → EReal) = R0.G6 (V1 m ρ) c :=
  (W2_arr m ρ c 6).trans (R0.final6 (V1 m ρ) c)
theorem W2_sqsums (c : Dev nD) : (W2 m ρ c (Proc.devRef .tc main_v22_2) : S10x8x256.Idx → EReal) = R0.G7 (V1 m ρ) c :=
  (W2_arr m ρ c 7).trans (R0.final7 (V1 m ρ) c)

theorem V3_hidden (c : Dev nD) : (V3 m ρ c main_v22_0 : S10000x256.Idx → EReal) = R0.G5 (V1 m ρ) c := by
  refine Eq.trans ?_ (W2_hidden m ρ c)
  dsimp only [V3, W3, hostOps1]
  after_results

theorem V3_v16 (c : Dev nD) : (V3 m ρ c main_v16 : S1x256.Idx → EReal) = shapeCast _ (m ((c.tc : Thread nD τ).loc main_arg5)) shapeCasts_S256_S1x256 := by
  have h1 : (V3 m ρ c main_v16 : S1x256.Idx → EReal) = W2 m ρ c (Proc.devRef .tc main_v16) := by
    dsimp only [V3, W3, hostOps1]
    after_results
  rw [h1, W2_of_ne m ρ c main_v16 (by decide)]
  dsimp only [W1, W0, hostOps0]
  after_results
  rfl

theorem V3_v17 (c : Dev nD) : (V3 m ρ c main_v17 : S1x256.Idx → EReal) = shapeCast _ (m ((c.tc : Thread nD τ).loc main_arg6)) shapeCasts_S256_S1x256 := by
  have h1 : (V3 m ρ c main_v17 : S1x256.Idx → EReal) = W2 m ρ c (Proc.devRef .tc main_v17) := by
    dsimp only [V3, W3, hostOps1]
    after_results
  rw [h1, W2_of_ne m ρ c main_v17 (by decide)]
  dsimp only [W1, W0, hostOps0]
  after_results
  rfl

theorem V3_v18 (c : Dev nD) : (V3 m ρ c main_v18 : S1x256.Idx → EReal) = shapeCast _ (m ((c.tc : Thread nD τ).loc main_arg8)) shapeCasts_S256_S1x256 := by
  have h1 : (V3 m ρ c main_v18 : S1x256.Idx → EReal) = W2 m ρ c (Proc.devRef .tc main_v18) := by
    dsimp only [V3, W3, hostOps1]
    after_results
  rw [h1, W2_of_ne m ρ c main_v18 (by decide)]
  dsimp only [W1, W0, hostOps0]
  after_results
  rfl

theorem V3_v21 (c : Dev nD) : (V3 m ρ c main_v21 : S256x256.Idx → EReal) = (m ((c.tc : Thread nD τ).loc main_arg7) : S256x256.Idx → EReal) := by
  have h1 : (V3 m ρ c main_v21 : S256x256.Idx → EReal) = W2 m ρ c (Proc.devRef .tc main_v21) := by
    dsimp only [V3, W3, hostOps1]
    after_results
  rw [h1, W2_of_ne m ρ c main_v21 (by decide)]
  dsimp only [W1, W0, hostOps0]
  after_results
  rfl

theorem V3_v37 (c : Dev nD) : (V3 m ρ c main_v37 : S1x256.Idx → EReal)
    = HostStats.asRow (HostStats.meanRow (W2 m ρ c (Proc.devRef .tc main_v22_1))) := by
  dsimp only [V3, W3, hostOps1]
  after_results
  generalize W2 m ρ c (Proc.devRef .tc main_v22_1) = P
  rfl

set_option maxHeartbeats 4000000 in
theorem V3_v38 (c : Dev nD) : (V3 m ρ c main_v38 : S1x256.Idx → EReal)
    = HostStats.asRow (HostStats.varRow (W2 m ρ c (Proc.devRef .tc main_v22_1)) (W2 m ρ c (Proc.devRef .tc main_v22_2))) := by
  dsimp only [V3, W3, hostOps1]
  after_results
  unfold HostStats.asRow HostStats.varRow HostStats.meanRow HostStats.sumRows
  rfl

/-- Sublane 0 of block b of the two statistics arrays: the block's column sums, and column sums of squares, of the hidden rows. -/
theorem sums_blocks (c : Dev nD) (b : Fin 10) (d : Fin 256) :
    (W2 m ρ c (Proc.devRef .tc main_v22_1) : S10x8x256.Idx → EReal) (ix3 b (0 : Fin 8) d) = ∑ r : Fin 1000, hidM m c (row b r) d := by
  rw [W2_sums, ← hidV1 m ρ c]
  rfl
theorem sqsums_blocks (c : Dev nD) (b : Fin 10) (d : Fin 256) :
    (W2 m ρ c (Proc.devRef .tc main_v22_2) : S10x8x256.Idx → EReal) (ix3 b (0 : Fin 8) d)
      = ∑ r : Fin 1000, hidM m c (row b r) d * hidM m c (row b r) d := by
  rw [W2_sqsums, ← hidV1 m ρ c]
  rfl

/-- The second grid's operands are the hidden rows, their blockwise statistics, and the parameters. -/
theorem eH (c : Dev nD) : m2 (V3 m ρ c main_v22_0) = hidM m c := by
  rw [V3_hidden, ← hidV1 m ρ c]
  rfl
theorem eMu (c : Dev nD) : R1.rowOf (V3 m ρ c main_v37) = meanK (hidM m c) := funext fun d =>
  ((congrFun (V3_v37 m ρ c) _).trans (HostStats.asRow_apply _ d)).trans
    (HostStats.meanK_of_blocks (hidM m c) _ (sums_blocks m ρ c) d)
theorem eVa (c : Dev nD) : R1.rowOf (V3 m ρ c main_v38) = varK (hidM m c) := funext fun d =>
  ((congrFun (V3_v38 m ρ c) _).trans (HostStats.asRow_apply _ d)).trans
    (HostStats.varK_of_blocks (hidM m c) _ _ (sums_blocks m ρ c) (sqsums_blocks m ρ c) d)
theorem eG (c : Dev nD) : R1.rowOf (V3 m ρ c main_v16) = m1 (m ((c.tc : Thread nD τ).loc main_arg5)) := funext fun d =>
  (congrFun (V3_v16 m ρ c) _).trans (Cert.RowBias.castRow_apply _ _ d)
theorem eB (c : Dev nD) : R1.rowOf (V3 m ρ c main_v17) = m1 (m ((c.tc : Thread nD τ).loc main_arg6)) := funext fun d =>
  (congrFun (V3_v17 m ρ c) _).trans (Cert.RowBias.castRow_apply _ _ d)
theorem eb2 (c : Dev nD) : R1.rowOf (V3 m ρ c main_v18) = m1 (m ((c.tc : Thread nD τ).loc main_arg8)) := funext fun d =>
  (congrFun (V3_v18 m ρ c) _).trans (Cert.RowBias.castRow_apply _ _ d)
theorem eW (c : Dev nD) : m2 (V3 m ρ c main_v21) = m2 (m ((c.tc : Thread nD τ).loc main_arg7)) := congrArg m2 (V3_v21 m ρ c)

/-- The result array after the second grid is the layer with the blockwise statistics. -/
theorem result_eq (c : Dev nD) : (dat1 (V3 m ρ) c).arrAt 7 cfg1.N = kres m c := by
  rw [R1.final7 (V3 m ρ) c]
  unfold R1.G7 kres layer
  rw [eH, eMu, eVa, eG, eB, eb2, eW]
  rfl

/-- The kernel's run: the result array at the layer with the blockwise statistics, the arguments unchanged. -/
theorem run : θ_run (defs (F := Ideal)) (onTc (τ := τ) (main (F := Ideal))) ⟨m, fun _ => 0, ρ⟩ (fun r => ∀ c : Dev nD,
      r.2.mem ((c.tc : Thread nD τ).loc main_v39) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (((W4_result m ρ c).trans (result_eq m ρ c))), (h c).2⟩) (run_named m ρ)

end Cert.KernelIdeal.KVal

end
-- ==== Proof.RefValue.lean ====
/-
  The reference's result, read entry by entry, is the layer with the direct column statistics.

  Every operation of the reference acts entrywise, broadcasts a row or a scalar, contracts one axis, or sums over the
  rows.  Read at the entry (p, c), the chain of operations is the layer's formula: the hidden rows
  ((1 + e) · x + agg) · W1 + b1, each column's mean and mean squared deviation over the 10000 rows, the normalised,
  scaled, shifted rows cut below at zero, and the second linear map.  The aggregated messages enter as an array that
  is never opened.  The same float words stand on both sides and are never evaluated.
-/
import proofs.«150048_j21801253995167_2_alg».proof.Proof.Gen.ReferenceIdeal.Read
import proofs.«150048_j21801253995167_2_alg».proof.Proof.Spec

noncomputable section

open scoped BigOperators

namespace Cert.Bn.Ref

open Idealize.ShloMosaic Idealize.ShloMosaic.ValueIdx Cert.ReferenceIdeal Cert.ReferenceIdeal.Read Cert.Bn

/-! ## Index equations: the operations' index maps at an entry given by its coordinates -/

section Idx
variable (p : Fin 10000) (d k : Fin 256) (r : Fin 10000)

/-- The first contraction reads row p of the left operand at column k … -/
theorem lidx21 : lidx_main_v21 (ix2 p d) k = ix2 p k := by
  funext a; match a with | ⟨0, _⟩ => rfl | ⟨1, _⟩ => rfl
/-- … and column d of the right operand at row k. -/
theorem ridx21 : ridx_main_v21 (ix2 p d) k = ix2 k d := by
  funext a; match a with | ⟨0, _⟩ => rfl | ⟨1, _⟩ => rfl
/-- The second contraction likewise. -/
theorem lidx51 : lidx_main_v51 (ix2 p d) k = ix2 p k := by
  funext a; match a with | ⟨0, _⟩ => rfl | ⟨1, _⟩ => rfl
theorem ridx51 : ridx_main_v51 (ix2 p d) k = ix2 k d := by
  funext a; match a with | ⟨0, _⟩ => rfl | ⟨1, _⟩ => rfl
/-- A sum over the rows reads column d at row r. -/
theorem idx25 : idx_main_v25 (ix1 d) r = ix2 r d := by
  funext a; match a with | ⟨0, _⟩ => rfl | ⟨1, _⟩ => rfl
theorem idx32 : idx_main_v32 (ix1 d) r = ix2 r d := by
  funext a; match a with | ⟨0, _⟩ => rfl | ⟨1, _⟩ => rfl
/-- The one-entry array broadcast to every entry reads its one entry. -/
theorem idx17 (j : S10000x256.Idx) : idx_main_v17 (idx_main_v18 j) = ix1 (0 : Fin 1) := by
  funext a; match a with | ⟨0, _⟩ => rfl
/-- A row broadcast down the rows reads its column-d entry at (p, d). -/
theorem idx23 : idx_main_v22 (idx_main_v23 (ix2 p d)) = ix1 d := by
  funext a; match a with | ⟨0, _⟩ => rfl
theorem idx29 : idx_main_v28 (idx_main_v29 (ix2 p d)) = ix1 d := by
  funext a; match a with | ⟨0, _⟩ => rfl
theorem idx36 : idx_main_v35 (idx_main_v36 (ix2 p d)) = ix1 d := by
  funext a; match a with | ⟨0, _⟩ => rfl
theorem idx42 : idx_main_v41 (idx_main_v42 (ix2 p d)) = ix1 d := by
  funext a; match a with | ⟨0, _⟩ => rfl
theorem idx45 : idx_main_v44 (idx_main_v45 (ix2 p d)) = ix1 d := by
  funext a; match a with | ⟨0, _⟩ => rfl
theorem idx48 : idx_main_v47 (idx_main_v48 (ix2 p d)) = ix1 d := by
  funext a; match a with | ⟨0, _⟩ => rfl
theorem idx53 : idx_main_v52 (idx_main_v53 (ix2 p d)) = ix1 d := by
  funext a; match a with | ⟨0, _⟩ => rfl

end Idx

/-! ## The stages -/

section Stages
variable (x0 : (⟨S10000x256, .f32⟩ : BufTy).Contents (Elt Ideal)) (x1 : (⟨S2x320000, .i32⟩ : BufTy).Contents (Elt Ideal))
  (x2 : (⟨S320000x256, .f32⟩ : BufTy).Contents (Elt Ideal)) (x3 : (⟨S256x256, .f32⟩ : BufTy).Contents (Elt Ideal))
  (x4 x5 x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S1, .f32⟩ : BufTy).Contents (Elt Ideal))

/-- The hidden rows of the reference's inputs: the node array, the aggregated messages, the first map's parameters. -/
abbrev hidR : Fin 10000 → Fin 256 → EReal :=
  hid (x9 (ix1 (0 : Fin 1))) (m2 x0) (m2 (val_main_v14 (F := Ideal) x0 x1 x2)) (m2 x3) (m1 x4)

/-- The first linear map's result at (p, d) is the hidden row's entry. -/
theorem v24_eq (p : Fin 10000) (d : Fin 256) :
    val_main_v24 (F := Ideal) x0 x1 x2 x3 x4 x9 (ix2 p d) = hidR x0 x1 x2 x3 x4 x9 p d := by
  simp only [val_main_v24_apply, val_main_v21_apply, val_main_v23_apply, val_main_v22_apply, val_main_v20_apply,
    val_main_v19_apply, val_main_v18_apply, val_main_v17_apply, val_main_v16_apply, val_main_v15_apply,
    val_main_cst_1_apply, lidx21, ridx21, idx17, idx23, Ideal.addf_def, Ideal.mulf_def, Ideal.ofBits_def]
  rfl

/-- The column means: the sum over the rows from zero, over the row count. -/
theorem v27_eq (d : Fin 256) :
    val_main_v27 (F := Ideal) x0 x1 x2 x3 x4 x9 (ix1 d) = mean (hidR x0 x1 x2 x3 x4 x9) d := by
  simp only [val_main_v27_apply, val_main_v25_apply, val_main_v26_apply, val_main_cst_2_apply, val_main_cst_3_apply,
    idx25, v24_eq, Ideal.hostDivf_def, Ideal.ofBits_def]
  rfl

/-- The column variances: the mean of the squared deviations from the column's mean. -/
theorem v34_eq (d : Fin 256) :
    val_main_v34 (F := Ideal) x0 x1 x2 x3 x4 x9 (ix1 d) = var (hidR x0 x1 x2 x3 x4 x9) d := by
  simp only [val_main_v34_apply, val_main_v32_apply, val_main_v33_apply, val_main_cst_4_apply, val_main_cst_5_apply,
    val_main_v31_apply, val_main_v30_apply, val_main_v29_apply, val_main_v28_apply, idx32, idx29, v24_eq, v27_eq,
    Ideal.hostDivf_def, Ideal.ofBits_def, Ideal.mulf_def, Ideal.subf_def]
  rfl

/-- The normalised, scaled and shifted hidden rows, cut below at zero. -/
theorem v50_eq (p : Fin 10000) (d : Fin 256) :
    val_main_v50 (F := Ideal) x0 x1 x2 x3 x4 x5 x6 x9 (ix2 p d)
      = act (hidR x0 x1 x2 x3 x4 x9) (mean (hidR x0 x1 x2 x3 x4 x9)) (var (hidR x0 x1 x2 x3 x4 x9)) (m1 x5) (m1 x6) p d := by
  simp only [val_main_v50_apply, val_main_call0_v0_apply, val_main_call0_cst_apply, val_main_v49_apply,
    val_main_v48_apply, val_main_v47_apply, val_main_v46_apply, val_main_v45_apply, val_main_v44_apply,
    val_main_v43_apply, val_main_v42_apply, val_main_v41_apply, val_main_v40_apply, val_main_v39_apply,
    val_main_v38_apply, val_main_cst_6_apply, val_main_v37_apply, val_main_v36_apply, val_main_v35_apply,
    idx36, idx42, idx45, idx48, v24_eq, v27_eq, v34_eq,
    Ideal.maximumf_def, Ideal.addf_def, Ideal.mulf_def, Ideal.subf_def, Ideal.hostUnary_rsqrt_def, Ideal.ofBits_def]
  rfl

/-- The reference's result at (p, c) is the layer with the direct column statistics. -/
theorem ref_eq (p : Fin 10000) (c : Fin 256) :
    val_main_v54 (F := Ideal) x0 x1 x2 x3 x4 x5 x6 x7 x8 x9 (ix2 p c)
      = layer mean var (x9 (ix1 (0 : Fin 1))) (m2 x0) (m2 (val_main_v14 (F := Ideal) x0 x1 x2)) (m2 x3) (m1 x4) (m1 x5)
          (m1 x6) (m2 x7) (m1 x8) p c := by
  simp only [val_main_v54_apply, val_main_v51_apply, val_main_v53_apply, val_main_v52_apply, lidx51, ridx51, idx53,
    v50_eq, Ideal.addf_def]
  rfl

end Stages

end Cert.Bn.Ref

end
-- ==== Proof.BatchStats.lean ====
/-
  Batch statistics over the extended reals: general lemmas about the column mean and variance of a
  10000-row array, as the specification module spells them.  Nothing here mentions a program.

  1. The three constants' values: the patterns of `+0.0`, `1.0` and `10000.0` denote `0`, `1` and `10000`.
  2. The extended reals that are real numbers are closed under addition, multiplication and finite sums; so every
     hidden entry `((1 + e) · x + agg) · W1 + b1` is real when every input entry is.
  3. Summing the ten blocks of 1000 consecutive rows one after the other is summing all 10000 rows: the map
     `(b, r) ↦ 1000 · b + r` is a bijection, and addition is commutative and associative.  This needs no
     finiteness, so the blockwise mean is the mean on every array, infinities included.
  4. For a real column `h₁, …, hₙ` (`n = 10000`) with mean `μ = (1/n) · ∑ hᵢ`, the textbook identity
     `(1/n) · ∑ hᵢ² − μ² = (1/n) · ∑ (hᵢ − μ)²` holds; its right side is a mean of squares, hence nonnegative, so
     cutting the left side below at zero changes nothing.  The blockwise variance is therefore the variance.
     Realness is needed here: on the extended reals `∞ − ∞` breaks the expansion of the square.
-/
import proofs.«150048_j21801253995167_2_alg».proof.Proof.Spec
import Idealize.ShloMosaic.PureOps.Ideal.Laws

noncomputable section

open scoped BigOperators

namespace Cert.Bn

open Idealize.ShloMosaic

/-! ### The constants' values -/

/-- The pattern of `+0.0` denotes `0`. -/
theorem zeroC_eq : zeroC = 0 := by
  unfold zeroC; exact Ideal.ofBits_zero_f32

/-- The pattern `0x3F800000` has exponent field `127` and significand field `0`: it denotes `2^23 · 2^(127 - 127 - 23) = 1`. -/
theorem oneC_eq : oneC = ((1 : ℝ) : EReal) := by
  unfold oneC
  simp [Ideal.ofBits, Ideal.ieee, -EReal.coe_mul]; norm_num

/-- The pattern `0x461C4000` has exponent field `140` and significand field `1851392`: it denotes
    `(2^23 + 1851392) · 2^(140 - 127 - 23) = 10240000 / 1024 = 10000`. -/
theorem cntC_eq : cntC = ((10000 : ℝ) : EReal) := by
  unfold cntC
  simp [Ideal.ofBits, Ideal.ieee, -EReal.coe_mul]; norm_num

/-! ### Real numbers inside the extended reals are closed under sums and products -/

theorem IsReal.add {a b : EReal} : IsReal a → IsReal b → IsReal (a + b) := by
  rintro ⟨r, rfl⟩ ⟨s, rfl⟩
  exact ⟨r + s, (EReal.coe_add r s).symm⟩

theorem IsReal.mul {a b : EReal} : IsReal a → IsReal b → IsReal (a * b) := by
  rintro ⟨r, rfl⟩ ⟨s, rfl⟩
  exact ⟨r * s, (EReal.coe_mul r s).symm⟩

theorem IsReal.zero : IsReal (0 : EReal) := ⟨0, EReal.coe_zero.symm⟩

theorem IsReal.sum {ι : Type} (s : Finset ι) (f : ι → EReal) :
    (∀ i ∈ s, IsReal (f i)) → IsReal (∑ i ∈ s, f i) := by
  classical
  refine Finset.induction_on s (fun _ => by rw [Finset.sum_empty]; exact IsReal.zero) ?_
  intro a s ha ih h
  rw [Finset.sum_insert ha]
  exact IsReal.add (h a (Finset.mem_insert_self a s)) (ih (fun i hi => h i (Finset.mem_insert_of_mem hi)))

theorem isReal_zeroC : IsReal zeroC := by rw [zeroC_eq]; exact IsReal.zero

theorem isReal_oneC : IsReal oneC := ⟨1, oneC_eq⟩

/-- Every hidden entry is real when every input entry is: it is a finite sum of products of reals, plus a real. -/
theorem isReal_hid (e : EReal) (x agg : Fin 10000 → Fin 256 → EReal) (W1 : Fin 256 → Fin 256 → EReal)
    (b1 : Fin 256 → EReal) (he : IsReal e) (hx : ∀ i k, IsReal (x i k)) (ha : ∀ i k, IsReal (agg i k))
    (hW : ∀ k d, IsReal (W1 k d)) (hb : ∀ d, IsReal (b1 d)) (i : Fin 10000) (d : Fin 256) :
    IsReal (hid e x agg W1 b1 i d) := by
  unfold hid
  exact IsReal.add
    (IsReal.sum _ _ (fun k _ =>
      IsReal.mul (IsReal.add (IsReal.mul (IsReal.add isReal_oneC he) (hx i k)) (ha i k)) (hW k d)))
    (hb d)

/-! ### Summing block by block is summing over all rows -/

/-- The pairs (block, row in block) are in bijection with the 10000 rows by `(b, r) ↦ 1000 · b + r`, so the
    iterated sum over blocks and rows in a block is a reordering of the sum over all rows.  Only commutativity
    and associativity of addition are used, so this holds on the extended reals with their infinities. -/
theorem sum_blocks {M : Type} [AddCommMonoid M] (f : Fin 10000 → M) :
    (∑ b : Fin 10, ∑ r : Fin 1000, f (row b r)) = ∑ i : Fin 10000, f i := by
  rw [← Fintype.sum_prod_type' (f := fun b r => f (row b r))]
  refine Fintype.sum_equiv (finProdFinEquiv (m := 10) (n := 1000)) _ _ (fun p => ?_)
  congr 1
  apply Fin.ext
  simp only [row, finProdFinEquiv, Equiv.coe_fn_mk]
  omega

/-- The blockwise mean is the mean. -/
theorem meanK_eq_mean (h : Fin 10000 → Fin 256 → EReal) : meanK h = mean h := by
  funext d
  unfold meanK mean
  rw [sum_blocks (fun i => h i d)]

/-! ### The variance identity -/

/-- The inclusion of the reals commutes with finite sums. -/
theorem coe_finset_sum {ι : Type} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

/-- A real total over the row count is the real `r · (1 / 10000)`. -/
theorem div_cnt_coe (r : ℝ) : Ideal.div (zeroC + (r : EReal)) cntC = ((r * (1 / 10000) : ℝ) : EReal) := by
  rw [zeroC_eq, cntC_eq, zero_add, Ideal.div_coe (by norm_num), ← EReal.coe_mul]

/-- The mean of a real column is the real mean. -/
theorem mean_coe (h : Fin 10000 → Fin 256 → EReal) (d : Fin 256) (g : Fin 10000 → ℝ)
    (hg : ∀ i, h i d = (g i : EReal)) :
    mean h d = (((∑ i : Fin 10000, g i) * (1 / 10000) : ℝ) : EReal) := by
  unfold mean
  rw [Finset.sum_congr rfl (fun i _ => hg i), ← coe_finset_sum, div_cnt_coe]

/-- The variance of a real column is the real mean of the squared deviations. -/
theorem var_coe (h : Fin 10000 → Fin 256 → EReal) (d : Fin 256) (g : Fin 10000 → ℝ)
    (hg : ∀ i, h i d = (g i : EReal)) :
    var h d = (((∑ i : Fin 10000, (g i - (∑ j : Fin 10000, g j) * (1 / 10000))
      * (g i - (∑ j : Fin 10000, g j) * (1 / 10000))) * (1 / 10000) : ℝ) : EReal) := by
  unfold var
  rw [mean_coe h d g hg]
  have hs : ∀ i : Fin 10000,
      (h i d - (((∑ j : Fin 10000, g j) * (1 / 10000) : ℝ) : EReal))
        * (h i d - (((∑ j : Fin 10000, g j) * (1 / 10000) : ℝ) : EReal))
      = (((g i - (∑ j : Fin 10000, g j) * (1 / 10000)) * (g i - (∑ j : Fin 10000, g j) * (1 / 10000)) : ℝ) : EReal) :=
    fun i => by rw [hg i, ← EReal.coe_sub, ← EReal.coe_mul]
  rw [Finset.sum_congr rfl (fun i _ => hs i), ← coe_finset_sum, div_cnt_coe]

/-- The textbook identity over the reals, for `n = 10000` numbers with mean `μ`:
    `(1/n) · ∑ gᵢ² − μ² = (1/n) · ∑ (gᵢ − μ)²`.  Expand the square: `∑ (gᵢ − μ)² = ∑ gᵢ² − 2μ · ∑ gᵢ + n · μ²`,
    and `∑ gᵢ = n · μ`. -/
theorem real_var_identity (g : Fin 10000 → ℝ) :
    (∑ i : Fin 10000, g i * g i) * (1 / 10000)
      - ((∑ j : Fin 10000, g j) * (1 / 10000)) * ((∑ j : Fin 10000, g j) * (1 / 10000))
    = (∑ i : Fin 10000, (g i - (∑ j : Fin 10000, g j) * (1 / 10000))
      * (g i - (∑ j : Fin 10000, g j) * (1 / 10000))) * (1 / 10000) := by
  generalize hμ : (∑ j : Fin 10000, g j) * (1 / 10000) = μ
  have hS : (∑ j : Fin 10000, g j) = 10000 * μ := by rw [← hμ]; ring
  have key : ∀ i : Fin 10000, (g i - μ) * (g i - μ) = g i * g i - 2 * μ * g i + μ * μ := fun i => by ring
  rw [Finset.sum_congr rfl (fun i _ => key i), Finset.sum_add_distrib, Finset.sum_sub_distrib,
    ← Finset.mul_sum, hS, Finset.sum_const, Finset.card_univ, Fintype.card_fin, nsmul_eq_mul]
  push_cast
  ring

/-- The blockwise variance of a real column is its variance: the two agree by the identity above, and the
    variance, a mean of squares, is nonnegative, so the cut below at zero changes nothing. -/
theorem varK_eq_var (h : Fin 10000 → Fin 256 → EReal) (d : Fin 256) (hr : ∀ i, IsReal (h i d)) :
    varK h d = var h d := by
  choose g hg using hr
  rw [var_coe h d g hg]
  unfold varK
  rw [meanK_eq_mean, sum_blocks (fun i => h i d * h i d), mean_coe h d g hg]
  have hq : ∀ i : Fin 10000, h i d * h i d = ((g i * g i : ℝ) : EReal) :=
    fun i => by rw [hg i, ← EReal.coe_mul]
  rw [Finset.sum_congr rfl (fun i _ => hq i), ← coe_finset_sum, div_cnt_coe, ← EReal.coe_mul, ← EReal.coe_sub,
    zeroC_eq, real_var_identity g]
  refine max_eq_left (EReal.coe_nonneg.mpr ?_)
  exact mul_nonneg (Finset.sum_nonneg (fun i _ => mul_self_nonneg _)) (by norm_num)

/-- Normalising with the blockwise statistics is normalising with the direct ones, on a real array. -/
theorem act_stats_eq (h : Fin 10000 → Fin 256 → EReal) (γ β : Fin 256 → EReal) (hr : ∀ i d, IsReal (h i d)) :
    act h (meanK h) (varK h) γ β = act h (mean h) (var h) γ β := by
  have hv : varK h = var h := funext (fun d => varK_eq_var h d (fun i => hr i d))
  rw [meanK_eq_mean, hv]

end Cert.Bn

end
-- ==== Proof.AggReal.lean ====
/-
  The aggregated messages are real numbers when the inputs are.

  The reference forms the aggregated messages in three steps.  It gathers rows of the node array: each gathered
  entry IS an entry of the node array.  It multiplies each gathered entry by an entry of the edge array: a product
  of two reals is real.  It then adds these products into an array of zeros, each product at the row its index
  names: every entry of the result is `0` plus a finite sum of some of the products, and a finite sum of reals is
  real.  Which products land in which entry never matters here: only that the entry is a zero plus a finite sum.

  Consequences: every hidden entry `((1 + e) · x + agg) · W1 + b1` of the layer is real when every input entry is,
  and so the layer computed with the blockwise column statistics is the layer computed with the direct ones.
-/
import proofs.«150048_j21801253995167_2_alg».proof.Proof.Gen.ReferenceIdeal.Read
import proofs.«150048_j21801253995167_2_alg».proof.Proof.BatchStats

noncomputable section

open scoped BigOperators

namespace Cert.Bn.Agg

open Idealize.ShloMosaic Cert.ReferenceIdeal Cert.ReferenceIdeal.Read Cert.Bn

/-- An array that is, entry by entry, a real operand entry plus a finite sum of real update entries is real, whatever
    rule selects the update entries that meet each operand entry. -/
theorem scatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact IsReal.add (hx i) (IsReal.sum _ _ (fun j _ => hu j))

/-- A gathered entry is an entry of the node array. -/
theorem gathered_real (x0 : (⟨S10000x256, .f32⟩ : BufTy).Contents (Elt Ideal))
    (x1 : (⟨S2x320000, .i32⟩ : BufTy).Contents (Elt Ideal)) (h0 : ∀ i, IsReal (x0 i)) (j : S320000x256.Idx) :
    IsReal (val_main_v10 (F := Ideal) x0 x1 j) := by
  unfold val_main_v10 Host.gather
  exact h0 _

/-- A message is a gathered entry times an edge entry. -/
theorem message_real (x0 : (⟨S10000x256, .f32⟩ : BufTy).Contents (Elt Ideal))
    (x1 : (⟨S2x320000, .i32⟩ : BufTy).Contents (Elt Ideal)) (x2 : (⟨S320000x256, .f32⟩ : BufTy).Contents (Elt Ideal))
    (h0 : ∀ i, IsReal (x0 i)) (h2 : ∀ i, IsReal (x2 i)) (j : S320000x256.Idx) :
    IsReal (val_main_v11 (F := Ideal) x0 x1 x2 j) := by
  rw [val_main_v11_apply, Ideal.mulf_def]
  exact IsReal.mul (gathered_real x0 x1 h0 j) (h2 j)

/-- The array the messages are added into holds the constant zero everywhere. -/
theorem zeros_real (i : S10000x256.Idx) : IsReal (val_main_v12 (F := Ideal) i) := by
  rw [val_main_v12_apply, val_main_cst_apply, Ideal.ofBits_def]
  exact isReal_zeroC

/-- Every aggregated entry is real: a zero plus a finite sum of real messages. -/
theorem agg_real (x0 : (⟨S10000x256, .f32⟩ : BufTy).Contents (Elt Ideal))
    (x1 : (⟨S2x320000, .i32⟩ : BufTy).Contents (Elt Ideal)) (x2 : (⟨S320000x256, .f32⟩ : BufTy).Contents (Elt Ideal))
    (h0 : ∀ i, IsReal (x0 i)) (h2 : ∀ i, IsReal (x2 i)) (i : S10000x256.Idx) :
    IsReal (val_main_v14 (F := Ideal) x0 x1 x2 i) := by
  unfold val_main_v14 Host.scatterAdd
  rw [Ideal.hostScatterAdd_def]
  exact scatterAdd_real _ _ _ _ zeros_real (message_real x0 x1 x2 h0 h2) i

/-- Every hidden entry is real when the node array, the edge array, the first linear map and the scalar `e` are. -/
theorem hid_real (x0 : (⟨S10000x256, .f32⟩ : BufTy).Contents (Elt Ideal))
    (x1 : (⟨S2x320000, .i32⟩ : BufTy).Contents (Elt Ideal)) (x2 : (⟨S320000x256, .f32⟩ : BufTy).Contents (Elt Ideal))
    (x3 : (⟨S256x256, .f32⟩ : BufTy).Contents (Elt Ideal)) (x4 : (⟨S256, .f32⟩ : BufTy).Contents (Elt Ideal))
    (x9 : (⟨S1, .f32⟩ : BufTy).Contents (Elt Ideal))
    (h0 : ∀ i, IsReal (x0 i)) (h2 : ∀ i, IsReal (x2 i)) (h3 : ∀ i, IsReal (x3 i)) (h4 : ∀ i, IsReal (x4 i))
    (h9 : ∀ i, IsReal (x9 i)) (i : Fin 10000) (d : Fin 256) :
    IsReal (hid (x9 (ValueIdx.ix1 (0 : Fin 1))) (m2 x0) (m2 (val_main_v14 (F := Ideal) x0 x1 x2)) (m2 x3) (m1 x4) i d) :=
  isReal_hid _ _ _ _ _ (h9 _) (fun p q => h0 (ValueIdx.ix2 p q))
    (fun p q => agg_real x0 x1 x2 h0 h2 (ValueIdx.ix2 p q)) (fun p q => h3 (ValueIdx.ix2 p q))
    (fun p => h4 (ValueIdx.ix1 p)) i d

end Cert.Bn.Agg

namespace Cert.Bn

/-- With real hidden rows, the layer computed with the blockwise column statistics is the layer computed with the
    direct ones. -/
theorem layer_stats_eq (e : EReal) (x agg : Fin 10000 → Fin 256 → EReal) (W1 : Fin 256 → Fin 256 → EReal)
    (b1 γ β : Fin 256 → EReal) (W2 : Fin 256 → Fin 256 → EReal) (b2 : Fin 256 → EReal)
    (hr : ∀ i d, IsReal (hid e x agg W1 b1 i d)) :
    layer meanK varK e x agg W1 b1 γ β W2 b2 = layer mean var e x agg W1 b1 γ β W2 b2 := by
  unfold layer
  rw [act_stats_eq _ _ _ hr]

end Cert.Bn

end
-- ==== Proof.Finite.lean ====
/-
  From "every float input is finite" to "every entry is a real number".

  The precondition tests each float input x entrywise by |x| < +∞ and joins all the entrywise bits, and the nine
  arrays' results, by "and"; the claim is that the joined bit is 1.  A conjunction of bits that is 1 has every bit 1,
  so every entry x of every tested array satisfies |x| < +∞.  Over the extended reals |x| is max x (-x), the word
  0x7F800000 denotes +∞, and max x (-x) < +∞ excludes x = +∞ and x = -∞: x is a real number.
-/
import proofs.«150048_j21801253995167_2_alg».proof.Pre_finite_inputs
import proofs.«150048_j21801253995167_2_alg».proof.Proof.Gen.Pre_finite_inputs
import proofs.«150048_j21801253995167_2_alg».proof.Proof.Spec
import Idealize.ShloMosaic.Lib.ReduceAll
import Idealize.ShloMosaic.Lib.ValueIdx

noncomputable section

namespace Cert.Bn.Finite

open Idealize.ShloMosaic Idealize.ShloMosaic.ValueIdx
open Cert.Pre_finite_inputs (S_ S10000x256 S2x320000 S320000x256 S256x256 S256 S1)

/-- The rank-0 shape has one index. -/
instance : Subsingleton S_.Idx := ⟨fun a b => funext fun d => d.elim0⟩

/-- The word 0x7F800000 denotes +∞. -/
theorem inf_eq_top : Ideal.ofBits .f32 0x7F800000#32 = (⊤ : EReal) := by simp [Ideal.ofBits, Ideal.ieee]

/-- An extended real x with max x (-x) < +∞ is a real number: +∞ fails the test itself, and -∞ fails it through -x. -/
theorem isReal_of_abs_lt (x : EReal) (h : Ideal.cmp .olt (max x (-x)) (Ideal.ofBits .f32 0x7F800000#32) = 1#1) :
    Cert.Bn.IsReal x := by
  rw [inf_eq_top] at h
  unfold Ideal.cmp at h
  induction x using EReal.rec with
  | bot => simp at h
  | coe r => exact ⟨r, rfl⟩
  | top => simp at h

/-- One block of the precondition: if the "and" over all entries of the test |a| < +∞ is 1, every entry of a is real. -/
theorem block_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ix0 = 1#1) :
    ∀ i, Cert.Bn.IsReal (a i) := by
  intro i
  have e := Host.reduce_andi_all _ _ hr hu ix0 h i
  exact isReal_of_abs_lt (a i) e

/-- The precondition's joined bit is 1, so each of the five arrays named has only real entries. -/
theorem inputs_real [Cert.Pre_finite_inputs.Facts]
    (a0 : FVec Ideal S10000x256 .f32) (a1 : IVec S2x320000 32) (a2 : FVec Ideal S320000x256 .f32)
    (a3 : FVec Ideal S256x256 .f32) (a4 a5 a6 : FVec Ideal S256 .f32) (a7 : FVec Ideal S256x256 .f32)
    (a8 : FVec Ideal S256 .f32) (a9 : FVec Ideal S1 .f32)
    (h : Cert.Pre_finite_inputs.fn (F := Ideal) a0 a1 a2 a3 a4 a5 a6 a7 a8 a9 = (fun _ => 1#1)) :
    (∀ i, Cert.Bn.IsReal (a0 i)) ∧ (∀ i, Cert.Bn.IsReal (a2 i)) ∧ (∀ i, Cert.Bn.IsReal (a3 i))
      ∧ (∀ i, Cert.Bn.IsReal (a4 i)) ∧ (∀ i, Cert.Bn.IsReal (a9 i)) := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨h0, h2⟩, h3⟩, h4⟩, h5⟩, h6⟩, h7⟩, h8⟩, h9⟩ := e
  exact ⟨block_real a0 _ _ _ h0, block_real a2 _ _ _ h2, block_real a3 _ _ _ h3, block_real a4 _ _ _ h4,
    block_real a9 _ _ _ h9⟩

end Cert.Bn.Finite

end
-- ==== Proof.lean ====
/-
  The proof of the certificate's claim.

  Both programs compute one layer: the node array meets the aggregated messages as (1 + e) · x + agg, a first linear
  map gives the hidden rows, each column of the hidden rows is normalised by its mean and its variance over the rows,
  scaled, shifted and cut below at zero, and a second linear map gives the result.  The reference takes the column
  statistics directly: the mean, and the mean of the squared deviations from it.  The kernel takes them blockwise: it
  adds the blocks' partial sums, and forms the variance as the mean of the squares less the square of the mean, cut
  below at zero.  The two agree because every hidden entry is a real number when the inputs are finite: over the reals
  the mean of the squared deviations IS the mean of the squares less the squared mean, and it is not negative, so the
  cut at zero changes nothing.
-/
import proofs.«150048_j21801253995167_2_alg».proof.Defs
import proofs.«150048_j21801253995167_2_alg».proof.Proof.Gen.Kernel
import proofs.«150048_j21801253995167_2_alg».proof.Proof.Gen.Kernel.Skeleton
import proofs.«150048_j21801253995167_2_alg».proof.Proof.Gen.Kernel.Launch
import proofs.«150048_j21801253995167_2_alg».proof.Proof.Gen.Kernel.Points
import proofs.«150048_j21801253995167_2_alg».proof.Proof.Gen.Kernel.Frame
import proofs.«150048_j21801253995167_2_alg».proof.Proof.Gen.KernelIdeal
import proofs.«150048_j21801253995167_2_alg».proof.Proof.Gen.KernelIdeal.Skeleton
import proofs.«150048_j21801253995167_2_alg».proof.Proof.Gen.KernelIdeal.Launch
import proofs.«150048_j21801253995167_2_alg».proof.Proof.Gen.KernelIdeal.Points
import proofs.«150048_j21801253995167_2_alg».proof.Proof.Gen.KernelIdeal.Frame
import proofs.«150048_j21801253995167_2_alg».proof.Proof.Gen.ReferenceIdeal
import proofs.«150048_j21801253995167_2_alg».proof.Proof.Gen.Pre_finite_inputs
import proofs.«150048_j21801253995167_2_alg».proof.Proof.Gen.ReferenceIdeal.Run
import proofs.«150048_j21801253995167_2_alg».proof.Proof.Gen.ReferenceIdeal.Read
import Idealize.ShloMosaic.Adequacy
import Idealize.ShloMosaic.Init
import proofs.«150048_j21801253995167_2_alg».proof.Proof.KVal
import proofs.«150048_j21801253995167_2_alg».proof.Proof.RefValue
import proofs.«150048_j21801253995167_2_alg».proof.Proof.AggReal
import proofs.«150048_j21801253995167_2_alg».proof.Proof.Finite

noncomputable section

namespace Cert.Proof

open Idealize.ShloMosaic Idealize.SL.Sem Idealize.ShloMosaic.ValueIdx Cert.Kernel

/-- The kernel runs and leaves its arguments unchanged. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- So does the reference: its run ends with the arguments unchanged (and the result at its composed term). -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- From memories that agree on the arguments, the kernel ends at the layer with the blockwise statistics and the
    reference at the layer with the direct ones, of the same arrays.  The precondition makes every entry of the node
    array, the edge array, the first map's matrix and bias and the scalar e real, hence every hidden entry real, and
    then the two layers are equal. -/
theorem algebraic : Cert.algebraic_KernelIdeal_ReferenceIdeal := by
  intro m ρ m' ρ' hpre hagree
  refine ⟨fun c => Cert.KernelIdeal.KVal.kres m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq]
  obtain ⟨e0, e1, e2, e3, e4, e5, e6, e7, e8, e9⟩ := hagree c
  rw [e0, e1, e2, e3, e4, e5, e6, e7, e8, e9]
  funext i
  obtain ⟨p, q, rfl⟩ : ∃ (p : Fin 10000) (q : Fin 256), i = ix2 p q := ⟨i 0, i 1, eq_ix2 i⟩
  rw [Cert.Bn.Ref.ref_eq]
  obtain ⟨r0, r2, r3, r4, r9⟩ := Cert.Bn.Finite.inputs_real _ _ _ _ _ _ _ _ _ _ (hpre c)
  have hr := Cert.Bn.Agg.hid_real _
    (m ((c.tc : Thread Cert.KernelIdeal.nD Cert.KernelIdeal.τ).loc Cert.KernelIdeal.main_arg1)) _ _ _ _ r0 r2 r3 r4 r9
  exact (congrFun (congrFun (Cert.Bn.layer_stats_eq _ _ _ _ _ _ _ _ _ hr) p) q).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
